-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S8x4096x4096 : Shape := ⟨3, ![8, 4096, 4096]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_

variable [Facts]

def fn_part1 {F : FTy → Type} [FloatOps F] (main_v13 : IVec S_ 1) (main_v16 : IVec S8x4096x4096 1) : IVec S_ 1 :=
  let main_c_5 : IVec S_ 1 := constantI S_ 1 1#1
  let main_v17 : IVec S_ 1 := (fun x v => Host.reduce IntOp.andi x v reducesTo_S8x4096x4096_S_d0_1_2 h_S_) main_v16 main_c_5
  let main_v18 : IVec S_ 1 := andi main_v13 main_v17
  main_v18

def fn {F : FTy → Type} [FloatOps F] (main_arg0 : FVec F S8x4096x64 .f32) (main_arg1 : FVec F S8x4096x64 .f32) (main_arg2 : FVec F S8x4096x64 .f32) (main_arg3 : FVec F S8x4096x4096 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  let main_v9 : FVec F S8x4096x64 .f32 := Host.absf main_arg2
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  let main_c_3 : IVec S_ 1 := constantI S_ 1 1#1
  let main_v12 : IVec S_ 1 := (fun x v => Host.reduce IntOp.andi x v reducesTo_S8x4096x64_S_d0_1_2 h_S_) main_v11 main_c_3
  let main_v13 : IVec S_ 1 := andi main_v8 main_v12
  let main_v14 : FVec F S8x4096x4096 .f32 := Host.absf main_arg3
  let main_cst_4 : FVec F S_ .f32 := constant S_ .f32 0x7F800000#32
  let main_v15 : FVec F S8x4096x4096 .f32 := broadcastInDim S8x4096x4096 ![] bcast_S_S8x4096x4096 main_cst_4
  let main_v16 : IVec S8x4096x4096 1 := cmpf .olt main_v14 main_v15
  fn_part1 (F := F) main_v13 main_v16
-- ==== Kernel.lean ====
abbrev S8x4096x64 : Shape := ⟨3, ![8, 4096, 64]⟩
abbrev S8x4096x4096 : Shape := ⟨3, ![8, 4096, 4096]⟩
abbrev S1x2048x64 : Shape := ⟨3, ![1, 2048, 64]⟩
abbrev S1x2048x2048 : Shape := ⟨3, ![1, 2048, 2048]⟩
abbrev S2048x1 : Shape := ⟨2, ![2048, 1]⟩
abbrev S2048x64 : Shape := ⟨2, ![2048, 64]⟩
abbrev S2048x2048 : Shape := ⟨2, ![2048, 2048]⟩
abbrev S2048 : Shape := ⟨1, ![2048]⟩

abbrev nBuf : Space → Nat
  | .hbm => 5
  | .vmem => 13
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096x4096, .f32⟩
  | .hbm, ⟨4, _⟩ => ⟨S8x4096x64, .f32⟩
  | .local _ .vmem, ⟨0, _⟩ => ⟨S1x2048x64, .f32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x2048, .f32⟩
  | .local _ .vmem, ⟨7, _⟩ => ⟨S1x2048x2048, .f32⟩
  | .local _ .vmem, ⟨8, _⟩ => ⟨S1x2048x64, .f32⟩
  | .local _ .vmem, ⟨9, _⟩ => ⟨S1x2048x64, .f32⟩
  | .local _ .vmem, ⟨10, _⟩ => ⟨S2048x1, .f32⟩
  | .local _ .vmem, ⟨11, _⟩ => ⟨S2048x1, .f32⟩
  | .local _ .vmem, ⟨12, _⟩ => ⟨S2048x64, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v46 : BitVec 1 := Scalar.cmpi .eq arg2 c1_i32
  let v47 : BitVec 32 := Scalar.extui v46
  let c0_i32_30 : BitVec 32 := 0#32
  let v48 : BitVec 1 := Scalar.cmpi .ne v47 c0_i32_30
  v48

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  reduces_S2048x2048_S2048 : S2048x2048.Reduces [1] S2048
  shapeCasts_S2048_S2048x1 : S2048.ShapeCasts S2048x1
  broadcasts_S2048x1_S2048x2048 : S2048x1.Broadcasts S2048x2048
  broadcasts_S2048x1_S2048x64 : S2048x1.Broadcasts S2048x64
  shapeCasts_S2048x64_S1x2048x64 : S2048x64.ShapeCasts S1x2048x64
  dot_S2048x64_S2048x64_S2048x2048_1_1_0_0_n_n_wf : DotDims.WF S2048x64 S2048x64 S2048x2048 [1] [1] [0] [0] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S8x4096x64.size a
  hwx0_0 : ∀ i : grid0.Coords, EltTy.bits .f32 = 32 ∨ (Rect.block (s := S8x4096x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x4096x64.size a
  hwx0_1 : ∀ i : grid0.Coords, EltTy.bits .f32 = 32 ∨ (Rect.block (s := S8x4096x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x4096x64.size a
  hwx0_2 : ∀ i : grid0.Coords, EltTy.bits .f32 = 32 ∨ (Rect.block (s := S8x4096x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x2048.size a ≤ S8x4096x4096.size a
  hwx0_3 : ∀ i : grid0.Coords, EltTy.bits .f32 = 32 ∨ (Rect.block (s := S8x4096x4096) S1x2048x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S8x4096x64.size a
  hwx0_4 : ∀ i : grid0.Coords, EltTy.bits .f32 = 32 ∨ (Rect.block (s := S8x4096x64) S1x2048x64.size (cc0_transform_4 i) (hinb0_4 i)).WholeWords (EltTy.packing .f32)

variable [Facts₀]

def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x64, .f32⟩
  | .hbm, ⟨3, _⟩ => ⟨S8x4096x4096, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .i1⟩
  | .hbm, ⟨11, _⟩ => ⟨S_, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096, .f32⟩
  | .hbm, ⟨17, _⟩ => ⟨S_, .f32⟩
  | .hbm, ⟨18, _⟩ => ⟨S8x4096, .f32⟩
  | .hbm, ⟨19, _⟩ => ⟨S8x4096, .f32⟩
  | .hbm, ⟨20, _⟩ => ⟨S8x4096x1, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S8x4096x4096, .f32⟩
  | .hbm, ⟨28, _⟩ => ⟨S8x4096x4096, .f32⟩
  | .hbm, ⟨29, _⟩ => ⟨S8x4096x64, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  dot_S8x4096x64_S8x4096x64_S8x4096x4096_2_2_1_1_0_0_wf : DotDims.WF S8x4096x64 S8x4096x64 S8x4096x4096 [2] [2] [1] [1] [0] [0]
  dot_S8x4096x4096_S8x4096x64_S8x4096x64_2_1_1_2_0_0_wf : DotDims.WF S8x4096x4096 S8x4096x64 S8x4096x64 [2] [1] [1] [2] [0] [0]

variable [Facts₀]

def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.Pieces.lean ====
/-
  What one grid point leaves behind, as pure functions of what it found.

  The body keeps three running quantities per query row in scratch memory: the largest score seen so far, the sum of the
  exponential weights, and the weighted sum of the value rows.  At the first key tile of a query tile it overwrites them
  with −∞, 0 and 0 and then updates them from the tile; at the last key tile it updates them from what the tile before
  left and writes the quotient of the weighted sum by the sum of weights into the output block.  Each statement below
  says that what a point leaves in one of these buffers is the body's own arithmetic — the named payload terms — applied
  to the point's input blocks and, at the last tile, to the three quantities the point before left.
-/
import proofs.«163251_j36807869727308_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first key tile: the three quantities start from −∞, 0, 0 -/
/-- The running maximum after the first tile. -/
theorem first_max (c : Dev nD) (i : grid0.Coords) (arg3 : Memref sig .tc .vmem S1x2048x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x2048 .f32) (harg6 : arg6.IsWhole) (arg7 : Memref sig .tc .vmem S1x2048x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond0_0 i) (hc1 : ¬cond0_1 i) (x0 : Vec F S1x2048x64 .f32) (x1 : Vec F S1x2048x64 .f32) (x2 : Vec F S1x2048x64 .f32) (x3 : Vec F S1x2048x2048 .f32) :
    sout0_A_0 c i arg3 harg3 arg4 harg4 arg5 harg5 arg6 harg6 arg7 harg7 arg8 harg8 arg9 harg9 arg10 harg10 hc0 hc1 x0 x1 x2 x3 = k0_pay3 (k0_pay10 x0 x1 x3 (k0_pay5 (F := F))) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x1) hz2]
  simp only [View.readCov_unit_zero (S := S2048x1) _ hz2, View.readCov_unit_zero (S := S2048x64) _ hz2, View.readAt_eq_ld,
    harg3.read_unread, harg4.read_unread, harg5.read_unread, harg6.read_unread, harg8.read_unread, harg9.read_unread, harg10.read_unread,
    View.ld_unit_zero (S := S1x2048x64) hz3, View.ld_unit_zero (S := S1x2048x2048) hz3,
    View.ld_unit_zero (S := S2048x1) hz2, View.ld_unit_zero (S := S2048x64) hz2]

/-- The running sum of weights after the first tile. -/
theorem first_den (c : Dev nD) (i : grid0.Coords) (arg3 : Memref sig .tc .vmem S1x2048x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x2048 .f32) (harg6 : arg6.IsWhole) (arg7 : Memref sig .tc .vmem S1x2048x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond0_0 i) (hc1 : ¬cond0_1 i) (x0 : Vec F S1x2048x64 .f32) (x1 : Vec F S1x2048x64 .f32) (x2 : Vec F S1x2048x64 .f32) (x3 : Vec F S1x2048x2048 .f32) :
    sout0_A_1 c i arg3 harg3 arg4 harg4 arg5 harg5 arg6 harg6 arg7 harg7 arg8 harg8 arg9 harg9 arg10 harg10 hc0 hc1 x0 x1 x2 x3 = k0_pay1 (k0_pay13 x0 x1 x3 (k0_pay5 (F := F)) (k0_pay6 (F := F))) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x1) hz2]
  simp only [View.readCov_unit_zero (S := S2048x1) _ hz2, View.readCov_unit_zero (S := S2048x64) _ hz2, View.readAt_eq_ld,
    harg3.read_unread, harg4.read_unread, harg5.read_unread, harg6.read_unread, harg8.read_unread, harg9.read_unread, harg10.read_unread,
    View.ld_unit_zero (S := S1x2048x64) hz3, View.ld_unit_zero (S := S1x2048x2048) hz3,
    View.ld_unit_zero (S := S2048x1) hz2, View.ld_unit_zero (S := S2048x64) hz2]

/-- The running weighted sum of value rows after the first tile. -/
theorem first_acc (c : Dev nD) (i : grid0.Coords) (arg3 : Memref sig .tc .vmem S1x2048x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x2048 .f32) (harg6 : arg6.IsWhole) (arg7 : Memref sig .tc .vmem S1x2048x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : cond0_0 i) (hc1 : ¬cond0_1 i) (x0 : Vec F S1x2048x64 .f32) (x1 : Vec F S1x2048x64 .f32) (x2 : Vec F S1x2048x64 .f32) (x3 : Vec F S1x2048x2048 .f32) :
    sout0_A_2 c i arg3 harg3 arg4 harg4 arg5 harg5 arg6 harg6 arg7 harg7 arg8 harg8 arg9 harg9 arg10 harg10 hc0 hc1 x0 x1 x2 x3 = k0_pay2 (k0_pay8 x2) (k0_pay11 x0 x1 x3 (k0_pay5 (F := F))) (k0_pay12 x0 x1 x3 (k0_pay5 (F := F))) (k0_pay7 (F := F)) := by
  unfold sout0_A_2
  rw [View.read_writes_eq_canon _ _ _ (scover0_A_2 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S2048x64) hz2]
  simp only [View.readCov_unit_zero (S := S2048x1) _ hz2, View.readCov_unit_zero (S := S2048x64) _ hz2, View.readAt_eq_ld,
    harg3.read_unread, harg4.read_unread, harg5.read_unread, harg6.read_unread, harg8.read_unread, harg9.read_unread, harg10.read_unread,
    View.ld_unit_zero (S := S1x2048x64) hz3, View.ld_unit_zero (S := S1x2048x2048) hz3,
    View.ld_unit_zero (S := S2048x1) hz2, View.ld_unit_zero (S := S2048x64) hz2]

/-! ## The last key tile: the three quantities continue from what the tile before left -/

/-- The running maximum after the last tile. -/
theorem last_max (c : Dev nD) (i : grid0.Coords) (arg3 : Memref sig .tc .vmem S1x2048x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x2048 .f32) (harg6 : arg6.IsWhole) (arg7 : Memref sig .tc .vmem S1x2048x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond0_0 i) (hc1 : cond0_1 i) (x0 : Vec F S1x2048x64 .f32) (x1 : Vec F S1x2048x64 .f32) (x2 : Vec F S1x2048x64 .f32) (x3 : Vec F S1x2048x2048 .f32) (xs0 : Vec F S2048x1 .f32) (xs1 : Vec F S2048x1 .f32) (xs2 : Vec F S2048x64 .f32) :
    sout0_B_0 c i arg3 harg3 arg4 harg4 arg5 harg5 arg6 harg6 arg7 harg7 arg8 harg8 arg9 harg9 arg10 harg10 hc0 hc1 x0 x1 x2 x3 xs0 xs1 xs2 = k0_pay3 (k0_pay10 x0 x1 x3 xs0) := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero (S := S2048x1) hz2]
  simp only [View.readCov_unit_zero (S := S2048x1) _ hz2, View.readCov_unit_zero (S := S2048x64) _ hz2, View.readAt_eq_ld,
    harg3.read_unread, harg4.read_unread, harg5.read_unread, harg6.read_unread, harg8.read_unread, harg9.read_unread, harg10.read_unread,
    View.ld_unit_zero (S := S1x2048x64) hz3, View.ld_unit_zero (S := S1x2048x2048) hz3,
    View.ld_unit_zero (S := S2048x1) hz2, View.ld_unit_zero (S := S2048x64) hz2]

/-- The running sum of weights after the last tile. -/
theorem last_den (c : Dev nD) (i : grid0.Coords) (arg3 : Memref sig .tc .vmem S1x2048x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x2048 .f32) (harg6 : arg6.IsWhole) (arg7 : Memref sig .tc .vmem S1x2048x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond0_0 i) (hc1 : cond0_1 i) (x0 : Vec F S1x2048x64 .f32) (x1 : Vec F S1x2048x64 .f32) (x2 : Vec F S1x2048x64 .f32) (x3 : Vec F S1x2048x2048 .f32) (xs0 : Vec F S2048x1 .f32) (xs1 : Vec F S2048x1 .f32) (xs2 : Vec F S2048x64 .f32) :
    sout0_B_1 c i arg3 harg3 arg4 harg4 arg5 harg5 arg6 harg6 arg7 harg7 arg8 harg8 arg9 harg9 arg10 harg10 hc0 hc1 x0 x1 x2 x3 xs0 xs1 xs2 = k0_pay1 (k0_pay13 x0 x1 x3 xs0 xs1) := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero (S := S2048x1) hz2]
  simp only [View.readCov_unit_zero (S := S2048x1) _ hz2, View.readCov_unit_zero (S := S2048x64) _ hz2, View.readAt_eq_ld,
    harg3.read_unread, harg4.read_unread, harg5.read_unread, harg6.read_unread, harg8.read_unread, harg9.read_unread, harg10.read_unread,
    View.ld_unit_zero (S := S1x2048x64) hz3, View.ld_unit_zero (S := S1x2048x2048) hz3,
    View.ld_unit_zero (S := S2048x1) hz2, View.ld_unit_zero (S := S2048x64) hz2]

/-- The running weighted sum of value rows after the last tile. -/
theorem last_acc (c : Dev nD) (i : grid0.Coords) (arg3 : Memref sig .tc .vmem S1x2048x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x2048 .f32) (harg6 : arg6.IsWhole) (arg7 : Memref sig .tc .vmem S1x2048x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond0_0 i) (hc1 : cond0_1 i) (x0 : Vec F S1x2048x64 .f32) (x1 : Vec F S1x2048x64 .f32) (x2 : Vec F S1x2048x64 .f32) (x3 : Vec F S1x2048x2048 .f32) (xs0 : Vec F S2048x1 .f32) (xs1 : Vec F S2048x1 .f32) (xs2 : Vec F S2048x64 .f32) :
    sout0_B_2 c i arg3 harg3 arg4 harg4 arg5 harg5 arg6 harg6 arg7 harg7 arg8 harg8 arg9 harg9 arg10 harg10 hc0 hc1 x0 x1 x2 x3 xs0 xs1 xs2 = k0_pay2 (k0_pay8 x2) (k0_pay11 x0 x1 x3 xs0) (k0_pay12 x0 x1 x3 xs0) xs2 := by
  unfold sout0_B_2
  rw [View.read_writes_eq_canon _ _ _ (scover0_B_2 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero (S := S2048x64) hz2]
  simp only [View.readCov_unit_zero (S := S2048x1) _ hz2, View.readCov_unit_zero (S := S2048x64) _ hz2, View.readAt_eq_ld,
    harg3.read_unread, harg4.read_unread, harg5.read_unread, harg6.read_unread, harg8.read_unread, harg9.read_unread, harg10.read_unread,
    View.ld_unit_zero (S := S1x2048x64) hz3, View.ld_unit_zero (S := S1x2048x2048) hz3,
    View.ld_unit_zero (S := S2048x1) hz2, View.ld_unit_zero (S := S2048x64) hz2]

/-- The output block the last tile writes: the weighted sum over the sum of weights, both as just updated. -/
theorem last_out (c : Dev nD) (i : grid0.Coords) (arg3 : Memref sig .tc .vmem S1x2048x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x2048x2048 .f32) (harg6 : arg6.IsWhole) (arg7 : Memref sig .tc .vmem S1x2048x64 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x64 .f32) (harg10 : arg10.IsWhole) (hc0 : ¬cond0_0 i) (hc1 : cond0_1 i) (x0 : Vec F S1x2048x64 .f32) (x1 : Vec F S1x2048x64 .f32) (x2 : Vec F S1x2048x64 .f32) (x3 : Vec F S1x2048x2048 .f32) (xs0 : Vec F S2048x1 .f32) (xs1 : Vec F S2048x1 .f32) (xs2 : Vec F S2048x64 .f32) :
    out0_B_4 c i arg3 harg3 arg4 harg4 arg5 harg5 arg6 harg6 arg7 harg7 arg8 harg8 arg9 harg9 arg10 harg10 hc0 hc1 x0 x1 x2 x3 xs0 xs1 xs2 = k0_pay4 (k0_pay2 (k0_pay8 x2) (k0_pay11 x0 x1 x3 xs0) (k0_pay12 x0 x1 x3 xs0) xs2) (k0_pay1 (k0_pay13 x0 x1 x3 xs0 xs1)) := by
  unfold out0_B_4
  rw [View.read_writes_eq_canon _ _ _ (cover0_B_4 c i arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero (S := S1x2048x64) hz3]
  simp only [View.readCov_unit_zero (S := S2048x1) _ hz2, View.readCov_unit_zero (S := S2048x64) _ hz2, View.readAt_eq_ld,
    harg3.read_unread, harg4.read_unread, harg5.read_unread, harg6.read_unread, harg8.read_unread, harg9.read_unread, harg10.read_unread,
    View.ld_unit_zero (S := S1x2048x64) hz3, View.ld_unit_zero (S := S1x2048x2048) hz3,
    View.ld_unit_zero (S := S2048x1) hz2, View.ld_unit_zero (S := S2048x64) hz2]

end Cert.KernelIdeal.Pieces

end
-- ==== Proof.LibRowMax.lean ====
/-
  The maximum of a two-axis array along its second axis, read at a row: over the extended reals, started from the word
  of −∞ (which denotes the least extended real), the maximum of an `[a, b]` array along its columns is at row `i` the
  supremum over the columns `k` of the entries `(i, k)`.  It holds for any extents.
-/
import Idealize.ShloMosaic.Lib.ValueIdx
import Idealize.ShloMosaic.PureOps.Ideal.Laws

noncomputable section

open scoped BigOperators

namespace Cert.LibRowMax

open Idealize.ShloMosaic Idealize.ShloMosaic.ValueIdx

/-- The f32 word of −∞ denotes the least extended real. -/
theorem ofBits_neg_inf_f32 : Ideal.ofBits .f32 0xFF800000#32 = (⊥ : EReal) := by
  simp [Ideal.ofBits, Ideal.ieee]

/-- A fold of `max` from the least element is the supremum. -/
theorem fold_max_bot_eq_sup {ι : Type*} (s : Finset ι) (f : ι → EReal) : s.fold max ⊥ f = s.sup f := rfl

/-- Over the extended reals, the maximum of an `[a, b]` array along its second axis, started from the word of −∞, is
    at row `i` the supremum over the columns `k` of the entries `(i, k)`. -/
theorem multiReduction_max_rows_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (i : Fin a) :
    multiReduction .maximumf [1] ⟨1, ![a]⟩ src 0xFF800000#32 h hφ hacc (ix1 i)
      = Finset.univ.sup fun k : Fin b => src (ix2 i k) := by
  refine (Ideal.multiReduction_maximumf_single src 0xFF800000#32 h hφ hacc (ix1 i)).trans ?_
  have hf : (src ∘ h.lift (ix1 i)) = fun k : Fin b => src (ix2 i k) :=
    funext fun k => congrArg src (funext fun ax => Fin.ext (by
      match ax with
      | ⟨0, _⟩ => rfl
      | ⟨1, _⟩ => rfl))
  rw [hf]
  show (Finset.univ : Finset (Fin b)).fold max (Ideal.ofBits .f32 0xFF800000#32) _ = _
  rw [ofBits_neg_inf_f32]
  exact fold_max_bot_eq_sup _ _

end Cert.LibRowMax

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.LibRowsDot.lean ====
/-
  A product of a matrix with the transpose of another, read at an entry.

  A contraction whose dimension numbers say "the second axis of an [A, K] operand against the second axis of a [B, K]
  operand, no batch axis, result [A, B]" reads its left operand at (row of the result, k) and its right operand at
  (column of the result, k), `k` ranging over the one contracted axis.  So the sum over the contraction index of the
  operands' products, at result entry (p, c), is `Σ_{k < K} l (p, k) · r (c, k)`: row p of the left operand against
  row c of the right one; a `tpu.matmul` into the zero splat is exactly that sum at the ideal values.  Generic in A, K, B,
  in the record and in the operands' float formats: the hypotheses are the record's six lists.
-/
import Idealize.ShloMosaic.PureOps.Ideal.Laws
import Idealize.ShloMosaic.Lib.ValueIdx

noncomputable section

namespace Cert.LibRowsDot

open Idealize.ShloMosaic Idealize.ShloMosaic.ValueIdx

/-- The dimension numbers of a product of rows `[A, K] × [B, K] → [A, B]`. -/
structure Rows {A K B : Nat} (D : DotDims ⟨2, ![A, K]⟩ ⟨2, ![B, K]⟩ ⟨2, ![A, B]⟩) : Prop where
  lc : D.lhsContracting = [1]
  rc : D.rhsContracting = [1]
  ln : D.lhsNonContracting = [0]
  rn : D.rhsNonContracting = [0]
  lb : D.lhsBatch = []
  rb : D.rhsBatch = []

variable {A K B : Nat} {D : DotDims ⟨2, ![A, K]⟩ ⟨2, ![B, K]⟩ ⟨2, ![A, B]⟩}

/-- One axis is contracted. -/
theorem Rows.rank (h : Rows D) : D.contr.rank = 1 := by rw [D.rank_contr, h.lc]; rfl

/-- Its extent is `K`. -/
theorem Rows.size (h : Rows D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Rows.lhs0 (h : Rows D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Rows.lhs1 (h : Rows D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the result's column, which is ITS row … -/
theorem Rows.rhs0 (h : Rows D) (j : (⟨2, ![A, B]⟩ : Shape).Idx) (q : D.contr.Idx) : (D.rhsIdx j q 0).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- … and the contraction position. -/
theorem Rows.rhs1 (h : Rows D) (j : (⟨2, ![A, B]⟩ : Shape).Idx) (q : D.contr.Idx) :
    (D.rhsIdx j q 1).val = (q ⟨0, by rw [h.rank]; exact Nat.one_pos⟩).val :=
  D.rhsIdx_val_of_single h.rc j q

/-- The contraction sum at result entry `(p, c)` is `Σ_k l (p, k) · r (c, k)`. -/
theorem Rows.sum_eq (h : Rows D) (l : (⟨2, ![A, K]⟩ : Shape).Idx → EReal) (r : (⟨2, ![B, K]⟩ : Shape).Idx → EReal)
    (p : Fin A) (c : Fin B) :
    ∑ q : D.contr.Idx, l (D.lhsIdx (ix2 p c) q) * r (D.rhsIdx (ix2 p c) q) = ∑ k : Fin K, l (ix2 p k) * r (ix2 c k) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 c k := funext fun a => Fin.ext (by
    match a with
    | ⟨0, _⟩ => exact h.rhs0 _ _
    | ⟨1, _⟩ => exact (h.rhs1 _ _).trans hk)
  rw [el, er]

/-- A `tpu.matmul` of such dimension numbers into the zero accumulator, at the ideal values, read at `(p, c)`. -/
theorem Rows.matmul_zero_apply (h : Rows D) (prec : Option ContractPrecision) {φ₁ φ₂ : FTy}
    (l : FVec Ideal ⟨2, ![A, K]⟩ φ₁) (r : FVec Ideal ⟨2, ![B, K]⟩ φ₂) (p : Fin A) (c : Fin B) :
    FloatOps.matmul D prec l r (constant ⟨2, ![A, B]⟩ .f32 0x00000000#32) (ix2 p c) = ∑ k : Fin K, l (ix2 p k) * r (ix2 c k) :=
  (Ideal.matmul_constant_zero_apply D prec l r (ix2 p c)).trans (h.sum_eq l r p c)

end Cert.LibRowsDot

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibRealEntries.lean ====
/-
  Entries that are real numbers, and the array operations that keep them so (at the ideal instance, where a float is
  an extended real). A sum, a product, a maximum and a finite sum of real numbers are real; hence entrywise sums,
  products and maxima of arrays with real entries, their broadcasts, a gather from such an array (each result entry
  is an entry of the operand), an accumulating scatter of such updates into such an operand (each entry gains
  finitely many real updates), and a contraction of two such arrays (finite sums of real products from zero) all
  have real entries. The reciprocal square root of an extended real that is at least one is real (it is 0 at +∞), so a
  reciprocal square root of anything clamped below at one is real, whatever was clamped.
-/
import Idealize.ShloMosaic.PureOps.Ideal.Laws

noncomputable section

namespace Cert.LibRealEntries

open Idealize.ShloMosaic Idealize.ShloMosaic.TcCoe

/-- An extended real that is a real number. -/
def IsReal (x : EReal) : Prop := ∃ y : ℝ, x = (y : EReal)

theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩
theorem IsReal.sum {ι : Type} (s : Finset ι) (f : ι → EReal) (h : ∀ i ∈ s, IsReal (f i)) : IsReal (∑ i ∈ s, f i) :=
  Finset.sum_induction f IsReal (fun _ _ => IsReal.add) IsReal.zero h

/-- The reciprocal square root of an extended real that is at least one is a real number. -/
theorem isReal_rsqrt_of_one_le {x : EReal} (h : 1 ≤ x) : IsReal (Ideal.rsqrt x) := by
  induction x using EReal.rec with
  | bot =>
    have hlt : (⊥ : EReal) < 1 := by exact_mod_cast EReal.bot_lt_coe 1
    exact absurd h (not_le.mpr hlt)
  | top => exact ⟨0, rfl⟩
  | coe r =>
    have hr : (1 : ℝ) ≤ r := by exact_mod_cast h
    show IsReal (if r < 0 then ⊥ else if r = 0 then ⊤ else (((Real.sqrt r)⁻¹ : ℝ) : EReal))
    rw [if_neg (by linarith), if_neg (by linarith)]
    exact ⟨_, rfl⟩

theorem isReal_zero_word : IsReal (Ideal.ofBits .f32 0x00000000#32) := by
  rw [Ideal.ofBits_zero_f32]; exact IsReal.zero

/-! ## The operations keep entries real (any shapes) -/

section Generic
variable {s t si u sl sr so : Shape} {w : Nat}

theorem real_maximumf (a b : FVec Ideal s .f32) (ha : ∀ i, IsReal (a i)) (hb : ∀ i, IsReal (b i)) (i : s.Idx) :
    IsReal (maximumf a b i) := (ha i).max (hb i)
theorem real_addf (a b : FVec Ideal s .f32) (ha : ∀ i, IsReal (a i)) (hb : ∀ i, IsReal (b i)) (i : s.Idx) :
    IsReal (addf a b i) := (ha i).add (hb i)
theorem real_mulf (a b : FVec Ideal s .f32) (ha : ∀ i, IsReal (a i)) (hb : ∀ i, IsReal (b i)) (i : s.Idx) :
    IsReal (mulf a b i) := (ha i).mul (hb i)
theorem real_bcast (dims : Fin s.rank → Fin t.rank) (h : s.BroadcastsInDim t dims) (x : FVec Ideal s .f32)
    (hx : ∀ i, IsReal (x i)) (j : t.Idx) : IsReal (broadcastInDim t dims h x j) := hx _
theorem real_gather (d : GatherDims s si t) (x : FVec Ideal s .f32) (idx : IVec si w) (hx : ∀ i, IsReal (x i)) (j : t.Idx) :
    IsReal (Host.gather d x idx j) := hx _
theorem real_scatterAdd (d : ScatterDims s si u) (x : FVec Ideal s .f32) (idx : IVec si w) (upd : FVec Ideal u .f32)
    (hx : ∀ i, IsReal (x i)) (hu : ∀ j, IsReal (upd j)) (i : s.Idx) : IsReal (Host.scatterAdd d x idx upd i) :=
  (hx i).add (IsReal.sum _ _ fun j _ => hu j)
theorem real_dot (d : DotDims sl sr so) (prec : Option ContractPrecision) (l : FVec Ideal sl .f32) (r : FVec Ideal sr .f32)
    (hl : ∀ i, IsReal (l i)) (hr : ∀ i, IsReal (r i)) (j : so.Idx) : IsReal (Host.dotGeneral d prec l r j) :=
  IsReal.zero.add (IsReal.sum _ _ fun k _ => (hl _).mul (hr _))
/-- A reciprocal square root of a value clamped below at one. -/
theorem real_rsqrt_clamp (one y : FVec Ideal s .f32) (h1 : ∀ i, one i = 1) (i : s.Idx) :
    IsReal (Host.rsqrt (maximumf one y) i) := by
  show IsReal (Ideal.rsqrt (Max.max (one i) (y i)))
  rw [h1 i]; exact isReal_rsqrt_of_one_le (le_max_left _ _)

end Generic

end Cert.LibRealEntries

end
-- ==== Proof.LibSumMulNonneg.lean ====
/-
  Multiplication by a nonnegative extended real other than +∞ goes through finite sums.

  On the extended reals multiplication does not distribute over addition in general (the sum +∞ + -∞ is -∞, and a
  factor +∞ or a negative factor can turn the two sides into different infinities).  For a factor `c` with
  `0 ≤ c` and `c ≠ ⊤` it does: `(y + z) * c = y * c + z * c` for all extended reals `y`, `z`.  This file states the
  consequence for a sum over any finite index set, on either side:

    `sum_mul_of_nonneg_of_ne_top` :  Σ_{i ∈ s} f i * c = (Σ_{i ∈ s} f i) * c,
    `mul_sum_of_nonneg_of_ne_top` :  Σ_{i ∈ s} c * f i = c * Σ_{i ∈ s} f i,

  their forms over a whole finite type, and the form with a second factor inside:
    `sum_mul_mul_of_nonneg_of_ne_top` : Σ_i a i * (w i * c) = (Σ_i a i * w i) * c.
  Nothing is assumed of the summands: they may be infinite and of either sign.
-/
import Mathlib.Data.EReal.Inv
import Mathlib.Algebra.BigOperators.Group.Finset.Basic

open scoped BigOperators

namespace Cert.LibSumMulNonneg

variable {ι : Type*}

/-- A nonnegative factor other than +∞ comes out of a finite sum on the right. -/
theorem sum_mul_of_nonneg_of_ne_top {c : EReal} (hc : 0 ≤ c) (hc' : c ≠ ⊤) (s : Finset ι) (f : ι → EReal) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top hc hc']

/-- A nonnegative factor other than +∞ comes out of a finite sum on the left. -/
theorem mul_sum_of_nonneg_of_ne_top {c : EReal} (hc : 0 ≤ c) (hc' : c ≠ ⊤) (s : Finset ι) (f : ι → EReal) :
    ∑ i ∈ s, c * f i = c * ∑ i ∈ s, f i := by
  classical
  induction s using Finset.induction_on with
  | empty => simp
  | insert a s ha ih =>
    rw [Finset.sum_insert ha, Finset.sum_insert ha, ih, EReal.left_distrib_of_nonneg_of_ne_top hc hc']

/-- The sum over a whole finite type, factor on the right. -/
theorem univ_sum_mul_of_nonneg_of_ne_top [Fintype ι] {c : EReal} (hc : 0 ≤ c) (hc' : c ≠ ⊤) (f : ι → EReal) :
    ∑ i, f i * c = (∑ i, f i) * c :=
  sum_mul_of_nonneg_of_ne_top hc hc' Finset.univ f

/-- The sum over a whole finite type, factor on the left. -/
theorem univ_mul_sum_of_nonneg_of_ne_top [Fintype ι] {c : EReal} (hc : 0 ≤ c) (hc' : c ≠ ⊤) (f : ι → EReal) :
    ∑ i, c * f i = c * ∑ i, f i :=
  mul_sum_of_nonneg_of_ne_top hc hc' Finset.univ f

/-- With a second factor inside: Σ_i a i * (w i * c) = (Σ_i a i * w i) * c. -/
theorem sum_mul_mul_of_nonneg_of_ne_top [Fintype ι] {c : EReal} (hc : 0 ≤ c) (hc' : c ≠ ⊤) (a w : ι → EReal) :
    ∑ i, a i * (w i * c) = (∑ i, a i * w i) * c := by
  rw [← univ_sum_mul_of_nonneg_of_ne_top hc hc']
  exact Finset.sum_congr rfl fun i _ => (mul_assoc (a i) (w i) c).symm

end Cert.LibSumMulNonneg
-- ==== Proof.LibSoftmaxRow.lean ====
/-
  Softmax weights over a finite row of extended reals, and the two places the normalising sum can divide.

  For a row of scores `s j` put `M = sup_j s j`, the weights `w j = exp (s j - M)` (the exact exponential: 0 at −∞, +∞ at
  +∞) and their sum `L = Σ_j w j`.  Against a column `v j` of arbitrary extended reals:

    `attnK s v = (Σ_j w j · v j) / L`        (normalise after the weighted sum),
    `attnR s v = Σ_j (w j / L) · v j`        (normalise the weights first),

  with the quotient of the exact instance (`x · y⁻¹` off zero).  When the row is nonempty and every score is a real number
  the maximum is one of the scores, so that weight is `exp 0 = 1` and `1 ≤ L` (`one_le_den`); then `L ≠ 0`, both quotients
  are products with `L⁻¹`, and `0 ≤ L⁻¹ < ⊤` goes through a finite sum of arbitrary extended reals: the two forms agree
  (`attnK_eq_attnR`), whatever the column holds.  Generic in the index type.
-/
import Idealize.ShloMosaic.PureOps.Ideal.Laws
import proofs.«163251_j36807869727308_2_alg».proof.Proof.LibRealEntries
import proofs.«163251_j36807869727308_2_alg».proof.Proof.LibSumMulNonneg
import Mathlib.Data.EReal.Inv

noncomputable section

open scoped BigOperators

namespace Cert.Attn

open Idealize.ShloMosaic Cert.LibRealEntries Cert.LibSumMulNonneg

/-! ## One row -/

section Row
variable {ι : Type} [Fintype ι]

/-- The largest score of the row (the least extended real for an empty row). -/
def rowMax (s : ι → EReal) : EReal := Finset.univ.sup s
/-- The weight of key `j`. -/
def wt (s : ι → EReal) (j : ι) : EReal := Ideal.exp (s j - rowMax s)
/-- The normalising sum. -/
def den (s : ι → EReal) : EReal := ∑ j, wt s j
/-- Normalise after the weighted sum. -/
def attnK (s v : ι → EReal) : EReal := Ideal.div (∑ j, wt s j * v j) (den s)
/-- Normalise the weights first. -/
def attnR (s v : ι → EReal) : EReal := ∑ j, Ideal.div (wt s j) (den s) * v j

/-- The exponential is nowhere negative. -/
theorem exp_nonneg (x : EReal) : 0 ≤ Ideal.exp x := by
  induction x using EReal.rec with
  | bot => exact le_refl _
  | top => exact le_top
  | coe r => exact EReal.coe_nonneg.mpr (Real.exp_pos r).le

/-- A quotient by a nonzero divisor is the product with its inverse. -/
theorem div_eq_mul_inv (x d : EReal) (hd : d ≠ 0) : Ideal.div x d = x * d⁻¹ := by
  unfold Ideal.div; rw [if_neg hd]

/-- With real scores, one weight is one, so the normalising sum is at least one. -/
theorem one_le_den [Nonempty ι] (s : ι → EReal) (hs : ∀ j, IsReal (s j)) : 1 ≤ den s := by
  obtain ⟨j0, -, hj0⟩ := Finset.exists_mem_eq_sup (Finset.univ : Finset ι) Finset.univ_nonempty s
  have h1 : wt s j0 = 1 := by
    obtain ⟨a, ha⟩ := hs j0
    unfold wt rowMax
    rw [hj0, ha, ← EReal.coe_sub, sub_self]
    show ((Real.exp 0 : ℝ) : EReal) = 1
    rw [Real.exp_zero]; rfl
  rw [← h1]
  exact Finset.single_le_sum (f := wt s) (fun j _ => exp_nonneg _) (Finset.mem_univ j0)

/-- The two normalisations agree on a row of real scores. -/
theorem attnK_eq_attnR [Nonempty ι] (s v : ι → EReal) (hs : ∀ j, IsReal (s j)) : attnK s v = attnR s v := by
  have h1 : 1 ≤ den s := one_le_den s hs
  have h0 : (0 : EReal) < 1 := by exact_mod_cast (zero_lt_one : (0 : ℝ) < 1)
  have hpos : 0 < den s := lt_of_lt_of_le h0 h1
  have hd : den s ≠ 0 := hpos.ne'
  have hc : 0 ≤ (den s)⁻¹ := EReal.inv_nonneg_of_nonneg hpos.le
  have hc' : (den s)⁻¹ ≠ ⊤ := (EReal.inv_lt_top _).ne
  unfold attnK attnR
  rw [div_eq_mul_inv _ _ hd, ← univ_sum_mul_of_nonneg_of_ne_top hc hc']
  refine Finset.sum_congr rfl fun j _ => ?_
  rw [div_eq_mul_inv _ _ hd, mul_right_comm]

end Row

end Cert.Attn

end
-- ==== Proof.LibOnlineSoftmax.lean ====
/-
  Softmax attention computed one key tile at a time.

  A row's attention output can be accumulated over consecutive tiles of keys while carrying three numbers: the largest
  score seen so far `m`, the sum of weights `l` and the weighted sum of values `acc`, both taken relative to `m`.  A tile
  with scores `s j` and values `v j` updates them to

      m' = max m (max_j s j),   l' = exp (m − m') · l + Σ_j exp (s j − m'),   acc' = exp (m − m') · acc + Σ_j exp (s j − m') · v j.

  Started from `(−∞, 0, 0)` and run over two tiles that together make up the row, `acc / l` is the row's attention
  output normalised after the weighted sum.  The reason: with real scores the maxima are real, the rescaling factor
  `exp (m₀ − M)` is a nonnegative real, so it passes through the first tile's sums, and
  `exp (m₀ − M) · exp (s − m₀) = exp (s − M)`; the first update multiplies its initial values by zero.  The values `v`
  may be any extended reals.
-/
import proofs.«163251_j36807869727308_2_alg».proof.Proof.LibSoftmaxRow
import Mathlib.Algebra.BigOperators.Fin

noncomputable section

open scoped BigOperators

namespace Cert.Online

open Idealize.ShloMosaic Cert.LibRealEntries Cert.LibSumMulNonneg Cert.Attn

/-- One key tile's update of (largest score, sum of weights, weighted sum of values). -/
def step {ι : Type} [Fintype ι] (s v : ι → EReal) (st : EReal × EReal × EReal) : EReal × EReal × EReal :=
  (max st.1 (Finset.univ.sup s),
   Ideal.exp (st.1 - max st.1 (Finset.univ.sup s)) * st.2.1 + ∑ j, Ideal.exp (s j - max st.1 (Finset.univ.sup s)),
   Ideal.exp (st.1 - max st.1 (Finset.univ.sup s)) * st.2.2 + ∑ j, Ideal.exp (s j - max st.1 (Finset.univ.sup s)) * v j)

theorem exp_coe (r : ℝ) : Ideal.exp (r : EReal) = ((Real.exp r : ℝ) : EReal) := rfl

/-- Rescaling a weight from one reference point to another. -/
theorem exp_sub_mul_exp_sub (x y z : ℝ) :
    Ideal.exp ((y : EReal) - (z : EReal)) * Ideal.exp ((x : EReal) - (y : EReal)) = Ideal.exp ((x : EReal) - (z : EReal)) := by
  rw [← EReal.coe_sub, ← EReal.coe_sub, ← EReal.coe_sub, exp_coe, exp_coe, exp_coe, ← EReal.coe_mul, ← Real.exp_add,
    show y - z + (x - y) = x - z by ring]

/-- The largest entry of a row split in two is the larger of the two parts' largest entries. -/
theorem sup_fin_add {a b : ℕ} (f : Fin (a + b) → EReal) :
    Finset.univ.sup f
      = max (Finset.univ.sup fun i : Fin a => f (Fin.castAdd b i)) (Finset.univ.sup fun j : Fin b => f (Fin.natAdd a j)) := by
  apply le_antisymm
  · refine Finset.sup_le fun k _ => ?_
    refine Fin.addCases (fun i => ?_) (fun j => ?_) k
    · exact le_max_of_le_left (Finset.le_sup (f := fun i : Fin a => f (Fin.castAdd b i)) (Finset.mem_univ i))
    · exact le_max_of_le_right (Finset.le_sup (f := fun j : Fin b => f (Fin.natAdd a j)) (Finset.mem_univ j))
  · exact max_le (Finset.sup_le fun i _ => Finset.le_sup (f := f) (Finset.mem_univ _))
      (Finset.sup_le fun j _ => Finset.le_sup (f := f) (Finset.mem_univ _))

/-- The largest of finitely many real numbers (at least one) is a real number. -/
theorem isReal_sup {ι : Type} [Fintype ι] [Nonempty ι] (s : ι → EReal) (hs : ∀ j, IsReal (s j)) :
    IsReal (Finset.univ.sup s) := by
  obtain ⟨j0, -, hj0⟩ := Finset.exists_mem_eq_sup (Finset.univ : Finset ι) Finset.univ_nonempty s
  rw [hj0]; exact hs j0

/-- Two tiles that make up a row of real scores: the carried quotient is the row's attention output. -/
theorem two_tiles {a b n : ℕ} (hn : a + b = n) (ha : 0 < a) (hb : 0 < b) (s v : Fin n → EReal)
    (s0 v0 : Fin a → EReal) (s1 v1 : Fin b → EReal)
    (h0 : ∀ j : Fin a, s0 j = s ⟨j.val, by omega⟩) (h1 : ∀ j : Fin b, s1 j = s ⟨a + j.val, by omega⟩)
    (g0 : ∀ j : Fin a, v0 j = v ⟨j.val, by omega⟩) (g1 : ∀ j : Fin b, v1 j = v ⟨a + j.val, by omega⟩)
    (hs : ∀ k, IsReal (s k)) :
    Ideal.div (step s1 v1 (step s0 v0 (⊥, 0, 0))).2.2 (step s1 v1 (step s0 v0 (⊥, 0, 0))).2.1 = attnK s v := by
  subst hn
  haveI : Nonempty (Fin a) := ⟨⟨0, ha⟩⟩
  haveI : Nonempty (Fin b) := ⟨⟨0, hb⟩⟩
  obtain rfl : s0 = fun j => s (Fin.castAdd b j) := funext h0
  obtain rfl : s1 = fun j => s (Fin.natAdd a j) := funext h1
  obtain rfl : v0 = fun j => v (Fin.castAdd b j) := funext g0
  obtain rfl : v1 = fun j => v (Fin.natAdd a j) := funext g1
  obtain ⟨μ0, hμ0⟩ := isReal_sup (fun j : Fin a => s (Fin.castAdd b j)) (fun j => hs _)
  obtain ⟨μ1, hμ1⟩ := isReal_sup (fun j : Fin b => s (Fin.natAdd a j)) (fun j => hs _)
  obtain ⟨μ, hμ⟩ : IsReal (max (μ0 : EReal) μ1) := IsReal.max ⟨μ0, rfl⟩ ⟨μ1, rfl⟩
  have hsup : rowMax s = (μ : EReal) := by unfold rowMax; rw [sup_fin_add, hμ0, hμ1, hμ]
  have key0 : ∀ j : Fin a, Ideal.exp ((μ0 : EReal) - μ) * Ideal.exp (s (Fin.castAdd b j) - μ0)
      = Ideal.exp (s (Fin.castAdd b j) - μ) := fun j => by
    obtain ⟨x, hx⟩ := hs (Fin.castAdd b j); rw [hx]; exact exp_sub_mul_exp_sub x μ0 μ
  have key1 : ∀ j : Fin a, Ideal.exp ((μ0 : EReal) - μ) * (Ideal.exp (s (Fin.castAdd b j) - μ0) * v (Fin.castAdd b j))
      = Ideal.exp (s (Fin.castAdd b j) - μ) * v (Fin.castAdd b j) := fun j => by rw [← mul_assoc, key0]
  have hα0 : 0 ≤ Ideal.exp ((μ0 : EReal) - μ) := exp_nonneg _
  have hα1 : Ideal.exp ((μ0 : EReal) - μ) ≠ ⊤ := by rw [← EReal.coe_sub]; exact EReal.coe_ne_top _
  unfold attnK den wt
  rw [hsup]
  unfold step
  dsimp only
  rw [hμ0, hμ1, max_eq_right (bot_le : (⊥ : EReal) ≤ μ0), hμ, mul_zero, zero_add, zero_add,
    ← univ_mul_sum_of_nonneg_of_ne_top hα0 hα1, ← univ_mul_sum_of_nonneg_of_ne_top hα0 hα1,
    Fin.sum_univ_add, Fin.sum_univ_add]
  simp only [key0, key1]

end Cert.Online

end
-- ==== Proof.Tile.lean ====
/-
  The body's arithmetic on one key tile, entry by entry, over the extended reals.

  With the query block `q`, key block `k`, value block `v` and mask block `mk` of a grid point, and the three carried
  quantities `(m, l, acc)` the point finds, the body computes for query row `r`:

    the masked scores  s j = (mask (r, j) = 0 ? −10¹⁰ : Σ_d (q (r, d) · 1/8) · k (j, d))   over the tile's 2048 keys j,
    m' = max m (max_j s j),   α = exp (m − m'),   p j = exp (s j − m'),
    l' = α · l + Σ_j p j,   acc' (d) = α · acc (d) + Σ_j p j · v (j, d),

  and, at the last tile, the output `acc' (d) / l'`.  Each named payload term of the body is read here at an entry: the
  block reshapes move no entry, a row maximum from −∞ is the supremum of the row, a row sum from 0 is the sum of the row,
  the two matrix products are the sums over the contracted axis.  The last three statements say that one tile's three
  stores are exactly one update `step` of the carried triple, and `out_two_tiles` that the last tile's output over
  what the first tile left is the quotient after two updates from `(−∞, 0, 0)`.
-/
import proofs.«163251_j36807869727308_2_alg».proof.Proof.Gen.KernelIdeal.Skeleton
import proofs.«163251_j36807869727308_2_alg».proof.Proof.LibRowMax
import proofs.«163251_j36807869727308_2_alg».proof.Proof.LibKeepdims
import proofs.«163251_j36807869727308_2_alg».proof.Proof.LibRowsDot
import proofs.«163251_j36807869727308_2_alg».proof.Proof.LibPlainDot
import proofs.«163251_j36807869727308_2_alg».proof.Proof.LibOnlineSoftmax
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.ShloMosaic.ValueIdx

namespace Cert.KernelIdeal.Tile

open Cert.KernelIdeal Cert.KernelIdeal.Gen Cert.Online

/-- The masked score of query row `r` of the query block against key row `j` of the key block, the query scaled by 1/8. -/
def ts (q k : Vec Ideal S1x2048x64 .f32) (mk : Vec Ideal S1x2048x2048 .f32) (r j : Fin 2048) : EReal :=
  Scalar.select (Ideal.cmp .oeq (mk (ix3 (0 : Fin 1) r j)) (Ideal.ofBits .f32 0x00000000#32)) (Ideal.ofBits .f32 0xD01502F9#32)
    (∑ d : Fin 64, (q (ix3 (0 : Fin 1) r d) * Ideal.ofBits .f32 0x3E000000#32) * k (ix3 (0 : Fin 1) j d))

theorem rowsQK : LibRowsDot.Rows dot_S2048x64_S2048x64_S2048x2048_1_1_0_0_n_n := ⟨rfl, rfl, rfl, rfl, rfl, rfl⟩
theorem plainPV : LibPlainDot.Plain dot_S2048x2048_S2048x64_S2048x64_1_0_0_1_n_n := ⟨rfl, rfl, rfl, rfl, rfl, rfl⟩

/-- The scaled query block times the transposed key block, at entry `(r, j)`. -/
theorem qk_apply (q k : Vec Ideal S1x2048x64 .f32) (r j : Fin 2048) :
    matmul dot_S2048x64_S2048x64_S2048x2048_1_1_0_0_n_n (some .fp32)
        (mulf (shapeCast S2048x64 q shapeCasts_S1x2048x64_S2048x64 : FVec Ideal S2048x64 .f32) (broadcast S2048x64 (FloatOps.ofBits (F := Ideal) .f32 0x3E000000#32)))
        (shapeCast S2048x64 k shapeCasts_S1x2048x64_S2048x64 : FVec Ideal S2048x64 .f32) (constant S2048x2048 .f32 0x00000000#32) (ix2 r j)
      = ∑ d : Fin 64, (q (ix3 (0 : Fin 1) r d) * Ideal.ofBits .f32 0x3E000000#32) * k (ix3 (0 : Fin 1) j d) := by
  refine (rowsQK.matmul_zero_apply _ _ _ r j).trans ?_
  refine Finset.sum_congr rfl fun d _ => ?_
  refine congr (congrArg HMul.hMul ?_) (shapeCast_1ab_ab_apply k _ j d)
  exact congrArg (· * Ideal.ofBits .f32 0x3E000000#32) (shapeCast_1ab_ab_apply q _ r d)

/-- The body's masked score tile at entry `(r, j)`. -/
theorem pay9_apply (q k : Vec Ideal S1x2048x64 .f32) (mk : Vec Ideal S1x2048x2048 .f32) (r j : Fin 2048) :
    k0_pay9 (F := Ideal) q k mk (ix2 r j) = ts q k mk r j := by
  unfold k0_pay9 ts
  refine (select_apply _ _ _ _).trans ?_
  refine congr (congrArg (fun c => Scalar.select c (Ideal.ofBits .f32 0xD01502F9#32)) ?_) (qk_apply q k r j)
  exact congrArg (fun x => Ideal.cmp .oeq x (Ideal.ofBits .f32 0x00000000#32)) (shapeCast_1ab_ab_apply mk _ r j)

/-- The running maximum after a tile, at row `r`. -/
theorem pay10_apply (q k : Vec Ideal S1x2048x64 .f32) (mk : Vec Ideal S1x2048x2048 .f32) (mprev : Vec Ideal S2048x1 .f32) (r : Fin 2048) :
    k0_pay10 (F := Ideal) q k mk mprev (ix2 r (0 : Fin 1)) = max (mprev (ix2 r (0 : Fin 1))) (Finset.univ.sup fun j : Fin 2048 => ts q k mk r j) := by
  unfold k0_pay10
  refine (maximumf_apply _ _ _).trans (congrArg (max _) ?_)
  refine (LibKeepdims.shapeCast_a_a1_apply _ shapeCasts_S2048_S2048x1 r 0).trans ?_
  refine (LibRowMax.multiReduction_max_rows_apply (k0_pay9 q k mk) reduces_S2048x2048_S2048 _ _ r).trans ?_
  exact congrArg _ (funext fun j => pay9_apply q k mk r j)

/-- The rescaling factor of a tile, at row `r`: exp (old maximum − new maximum). -/
theorem pay11_apply (q k : Vec Ideal S1x2048x64 .f32) (mk : Vec Ideal S1x2048x2048 .f32) (mprev : Vec Ideal S2048x1 .f32) (r : Fin 2048) :
    k0_pay11 (F := Ideal) q k mk mprev (ix2 r (0 : Fin 1))
      = Ideal.exp (mprev (ix2 r (0 : Fin 1)) - k0_pay10 (F := Ideal) q k mk mprev (ix2 r (0 : Fin 1))) := rfl

/-- A tile's weights, at entry `(r, j)`: exp (score − new maximum of the row). -/
theorem pay12_apply (q k : Vec Ideal S1x2048x64 .f32) (mk : Vec Ideal S1x2048x2048 .f32) (mprev : Vec Ideal S2048x1 .f32) (r j : Fin 2048) :
    k0_pay12 (F := Ideal) q k mk mprev (ix2 r j)
      = Ideal.exp (k0_pay9 (F := Ideal) q k mk (ix2 r j) - k0_pay10 (F := Ideal) q k mk mprev (ix2 r (0 : Fin 1))) := by
  unfold k0_pay12
  exact congrArg (fun x => Ideal.exp (k0_pay9 (F := Ideal) q k mk (ix2 r j) - x))
    (LibKeepdims.broadcastTo_a1_ab_apply (k0_pay10 (F := Ideal) q k mk mprev) broadcasts_S2048x1_S2048x2048 r j)

/-- The running sum of weights after a tile, at row `r`. -/
theorem pay13_apply (q k : Vec Ideal S1x2048x64 .f32) (mk : Vec Ideal S1x2048x2048 .f32) (mprev lprev : Vec Ideal S2048x1 .f32) (r : Fin 2048) :
    k0_pay13 (F := Ideal) q k mk mprev lprev (ix2 r (0 : Fin 1))
      = k0_pay11 (F := Ideal) q k mk mprev (ix2 r (0 : Fin 1)) * lprev (ix2 r (0 : Fin 1))
        + ∑ j : Fin 2048, k0_pay12 (F := Ideal) q k mk mprev (ix2 r j) := by
  unfold k0_pay13
  refine (addf_apply _ _ _).trans
    (congrArg (fun x => k0_pay11 (F := Ideal) q k mk mprev (ix2 r (0 : Fin 1)) * lprev (ix2 r (0 : Fin 1)) + x) ?_)
  refine (LibKeepdims.shapeCast_a_a1_apply _ shapeCasts_S2048_S2048x1 r 0).trans ?_
  exact LibKeepdims.multiReduction_add_rows_apply (k0_pay12 (F := Ideal) q k mk mprev) reduces_S2048x2048_S2048 _ _ r

/-- The value block as a matrix. -/
theorem pay8_apply (vv : Vec Ideal S1x2048x64 .f32) (j : Fin 2048) (d : Fin 64) :
    k0_pay8 (F := Ideal) vv (ix2 j d) = vv (ix3 (0 : Fin 1) j d) := shapeCast_1ab_ab_apply vv _ j d

/-- The running weighted sum of value rows after a tile, at entry `(r, d)`. -/
theorem pay2_apply (v10 : FVec Ideal S2048x64 .f32) (v23 : FVec Ideal S2048x1 .f32) (v26 : FVec Ideal S2048x2048 .f32)
    (v36 : Vec Ideal S2048x64 .f32) (r : Fin 2048) (d : Fin 64) :
    k0_pay2 (F := Ideal) v10 v23 v26 v36 (ix2 r d)
      = v23 (ix2 r (0 : Fin 1)) * v36 (ix2 r d) + ∑ j : Fin 2048, v26 (ix2 r j) * v10 (ix2 j d) := by
  unfold k0_pay2
  refine (congrFun (shapeCast_self _ shapeCasts_S2048x64_S2048x64) (ix2 r d)).trans ?_
  refine (addf_apply _ _ _).trans ?_
  refine congr (congrArg HAdd.hAdd ?_) (plainPV.matmul_zero_apply _ v26 v10 r d)
  exact congrArg (· * v36 (ix2 r d)) (LibKeepdims.broadcastTo_a1_ab_apply v23 broadcasts_S2048x1_S2048x64 r d)

/-- The output block: the weighted sum over the sum of weights, row by row. -/
theorem pay4_apply (v49 : Vec Ideal S2048x64 .f32) (v50 : Vec Ideal S2048x1 .f32) (r : Fin 2048) (d : Fin 64) :
    k0_pay4 (F := Ideal) v49 v50 (ix3 (0 : Fin 1) r d) = Ideal.div (v49 (ix2 r d)) (v50 (ix2 r (0 : Fin 1))) := by
  unfold k0_pay4
  refine (shapeCast_ab_1ab_apply _ shapeCasts_S2048x64_S1x2048x64 0 r d).trans ?_
  refine (divf_apply _ _ _).trans ?_
  exact congrArg (Ideal.div (v49 (ix2 r d))) (LibKeepdims.broadcastTo_a1_ab_apply v50 broadcasts_S2048x1_S2048x64 r d)

theorem pay1_eq (v : FVec Ideal S2048x1 .f32) : k0_pay1 (F := Ideal) v = v := shapeCast_self _ _
theorem pay3_eq (v : FVec Ideal S2048x1 .f32) : k0_pay3 (F := Ideal) v = v := shapeCast_self _ _

/-- The initial running maximum is −∞, -/
theorem pay5_apply (i : S2048x1.Idx) : k0_pay5 (F := Ideal) i = (⊥ : EReal) := by
  unfold k0_pay5
  refine (congrFun (shapeCast_self _ shapeCasts_S2048x1_S2048x1) i).trans ?_
  exact LibRowMax.ofBits_neg_inf_f32
/-- the initial sum of weights is 0, -/
theorem pay6_apply (i : S2048x1.Idx) : k0_pay6 (F := Ideal) i = (0 : EReal) := by
  unfold k0_pay6
  refine (congrFun (shapeCast_self _ shapeCasts_S2048x1_S2048x1) i).trans ?_
  exact Ideal.ofBits_zero_f32
/-- and the initial weighted sum is 0. -/
theorem pay7_apply (i : S2048x64.Idx) : k0_pay7 (F := Ideal) i = (0 : EReal) := by
  unfold k0_pay7
  refine (congrFun (shapeCast_self _ shapeCasts_S2048x64_S2048x64) i).trans ?_
  exact Ideal.ofBits_zero_f32

/-! ## One tile is one update of the carried triple -/

/-- The carried triple at row `r` and value column `d`. -/
abbrev triple (mprev lprev : Vec Ideal S2048x1 .f32) (accprev : Vec Ideal S2048x64 .f32) (r : Fin 2048) (d : Fin 64) :
    EReal × EReal × EReal := (mprev (ix2 r (0 : Fin 1)), lprev (ix2 r (0 : Fin 1)), accprev (ix2 r d))

theorem step_max (q k vv : Vec Ideal S1x2048x64 .f32) (mk : Vec Ideal S1x2048x2048 .f32) (mprev lprev : Vec Ideal S2048x1 .f32)
    (accprev : Vec Ideal S2048x64 .f32) (r : Fin 2048) (d : Fin 64) :
    k0_pay3 (F := Ideal) (k0_pay10 (F := Ideal) q k mk mprev) (ix2 r (0 : Fin 1))
      = (step (ts q k mk r) (fun j : Fin 2048 => vv (ix3 (0 : Fin 1) j d)) (triple mprev lprev accprev r d)).1 := by
  rw [pay3_eq]; exact pay10_apply q k mk mprev r

theorem step_den (q k vv : Vec Ideal S1x2048x64 .f32) (mk : Vec Ideal S1x2048x2048 .f32) (mprev lprev : Vec Ideal S2048x1 .f32)
    (accprev : Vec Ideal S2048x64 .f32) (r : Fin 2048) (d : Fin 64) :
    k0_pay1 (F := Ideal) (k0_pay13 (F := Ideal) q k mk mprev lprev) (ix2 r (0 : Fin 1))
      = (step (ts q k mk r) (fun j : Fin 2048 => vv (ix3 (0 : Fin 1) j d)) (triple mprev lprev accprev r d)).2.1 := by
  rw [pay1_eq, pay13_apply, pay11_apply, pay10_apply]
  simp only [pay12_apply, pay9_apply, pay10_apply]
  rfl

theorem step_acc (q k vv : Vec Ideal S1x2048x64 .f32) (mk : Vec Ideal S1x2048x2048 .f32) (mprev lprev : Vec Ideal S2048x1 .f32)
    (accprev : Vec Ideal S2048x64 .f32) (r : Fin 2048) (d : Fin 64) :
    k0_pay2 (F := Ideal) (k0_pay8 (F := Ideal) vv) (k0_pay11 (F := Ideal) q k mk mprev) (k0_pay12 (F := Ideal) q k mk mprev) accprev (ix2 r d)
      = (step (ts q k mk r) (fun j : Fin 2048 => vv (ix3 (0 : Fin 1) j d)) (triple mprev lprev accprev r d)).2.2 := by
  rw [pay2_apply, pay11_apply, pay10_apply]
  simp only [pay12_apply, pay9_apply, pay10_apply, pay8_apply]
  rfl

/-! ## Two tiles -/

/-- The output block of the last key tile, computed over what the first key tile left from `(−∞, 0, 0)`: the carried
    weighted sum over the carried sum of weights after two updates. -/
theorem out_two_tiles (qA kA vA : Vec Ideal S1x2048x64 .f32) (mkA : Vec Ideal S1x2048x2048 .f32)
    (qB kB vB : Vec Ideal S1x2048x64 .f32) (mkB : Vec Ideal S1x2048x2048 .f32) (r : Fin 2048) (d : Fin 64) :
    k0_pay4 (F := Ideal)
        (k0_pay2 (F := Ideal) (k0_pay8 (F := Ideal) vB)
          (k0_pay11 (F := Ideal) qB kB mkB (k0_pay3 (F := Ideal) (k0_pay10 (F := Ideal) qA kA mkA (k0_pay5 (F := Ideal)))))
          (k0_pay12 (F := Ideal) qB kB mkB (k0_pay3 (F := Ideal) (k0_pay10 (F := Ideal) qA kA mkA (k0_pay5 (F := Ideal)))))
          (k0_pay2 (F := Ideal) (k0_pay8 (F := Ideal) vA) (k0_pay11 (F := Ideal) qA kA mkA (k0_pay5 (F := Ideal)))
            (k0_pay12 (F := Ideal) qA kA mkA (k0_pay5 (F := Ideal))) (k0_pay7 (F := Ideal))))
        (k0_pay1 (F := Ideal) (k0_pay13 (F := Ideal) qB kB mkB (k0_pay3 (F := Ideal) (k0_pay10 (F := Ideal) qA kA mkA (k0_pay5 (F := Ideal))))
          (k0_pay1 (F := Ideal) (k0_pay13 (F := Ideal) qA kA mkA (k0_pay5 (F := Ideal)) (k0_pay6 (F := Ideal))))))
        (ix3 (0 : Fin 1) r d)
      = Ideal.div
          (step (ts qB kB mkB r) (fun j : Fin 2048 => vB (ix3 (0 : Fin 1) j d))
            (step (ts qA kA mkA r) (fun j : Fin 2048 => vA (ix3 (0 : Fin 1) j d)) (⊥, 0, 0))).2.2
          (step (ts qB kB mkB r) (fun j : Fin 2048 => vB (ix3 (0 : Fin 1) j d))
            (step (ts qA kA mkA r) (fun j : Fin 2048 => vA (ix3 (0 : Fin 1) j d)) (⊥, 0, 0))).2.1 := by
  have hA : triple (k0_pay3 (F := Ideal) (k0_pay10 (F := Ideal) qA kA mkA (k0_pay5 (F := Ideal))))
      (k0_pay1 (F := Ideal) (k0_pay13 (F := Ideal) qA kA mkA (k0_pay5 (F := Ideal)) (k0_pay6 (F := Ideal))))
      (k0_pay2 (F := Ideal) (k0_pay8 (F := Ideal) vA) (k0_pay11 (F := Ideal) qA kA mkA (k0_pay5 (F := Ideal)))
        (k0_pay12 (F := Ideal) qA kA mkA (k0_pay5 (F := Ideal))) (k0_pay7 (F := Ideal))) r d
      = step (ts qA kA mkA r) (fun j : Fin 2048 => vA (ix3 (0 : Fin 1) j d)) (⊥, 0, 0) := by
    have ht : triple (k0_pay5 (F := Ideal)) (k0_pay6 (F := Ideal)) (k0_pay7 (F := Ideal)) r d = ((⊥ : EReal), (0 : EReal), (0 : EReal)) := by
      show (k0_pay5 (F := Ideal) _, k0_pay6 (F := Ideal) _, k0_pay7 (F := Ideal) _) = _
      rw [pay5_apply, pay6_apply, pay7_apply]
    show (_, _, _) = _
    rw [step_max qA kA vA mkA _ (k0_pay6 (F := Ideal)) (k0_pay7 (F := Ideal)) r d, step_den qA kA vA mkA _ _ (k0_pay7 (F := Ideal)) r d,
      step_acc qA kA vA mkA _ (k0_pay6 (F := Ideal)) _ r d, ht]
  rw [pay4_apply, step_acc qB kB vB mkB _ (k0_pay1 (F := Ideal) (k0_pay13 (F := Ideal) qA kA mkA (k0_pay5 (F := Ideal)) (k0_pay6 (F := Ideal)))) _ r d,
    step_den qB kB vB mkB _ _ (k0_pay2 (F := Ideal) (k0_pay8 (F := Ideal) vA) (k0_pay11 (F := Ideal) qA kA mkA (k0_pay5 (F := Ideal)))
      (k0_pay12 (F := Ideal) qA kA mkA (k0_pay5 (F := Ideal))) (k0_pay7 (F := Ideal))) r d, hA]

end Cert.KernelIdeal.Tile

end
-- ==== Proof.Spec.lean ====
/-
  Masked scaled-dot-product attention, entry by entry, over the extended reals.

  For batch `b`, query row `n` and key row `k` the score is the dot product of the query and key rows divided by 8,
  replaced by the fill value −10¹⁰ where the mask entry is zero.  The output at `(b, n, d)` is the softmax-weighted
  sum of the value entries `(b, k, d)` over all 4096 keys `k`, in the form that normalises after the weighted sum:
  `(Σ_k w_k · v_k) / (Σ_k w_k)` with `w_k = exp (score_k − max_k score_k)`.

  Two facts about the score are proved here.  Scaling the query row by 1/8 before the dot product gives the same number
  as dividing the dot product by 8 — for all extended reals, because 1/8 is a nonnegative finite factor and such a factor
  passes through a finite sum.  And when every query and key entry is a real number the score is a real number, the
  fill value being one.
-/
import proofs.«163251_j36807869727308_2_alg».proof.Proof.LibSoftmaxRow
import Idealize.ShloMosaic.Lib.ValueIdx

noncomputable section

open scoped BigOperators

namespace Cert.Spec

open Idealize.ShloMosaic Idealize.ShloMosaic.ValueIdx Cert.LibRealEntries Cert.LibSumMulNonneg Cert.Attn

/-- The word of 8.0 denotes 8. -/
theorem ofBits_eight : Ideal.ofBits .f32 0x41000000#32 = ((8 : ℝ) : EReal) := by
  simp [Ideal.ofBits, Ideal.ieee, -EReal.coe_mul]; norm_num

/-- The word of 0.125 denotes 1/8. -/
theorem ofBits_eighth : Ideal.ofBits .f32 0x3E000000#32 = ((1 / 8 : ℝ) : EReal) := by
  simp [Ideal.ofBits, Ideal.ieee, -EReal.coe_mul]; norm_num

/-- The fill value for masked scores is a real number. -/
theorem isReal_fill : IsReal (Ideal.ofBits .f32 0xD01502F9#32) := by
  simp [Ideal.ofBits, Ideal.ieee, -EReal.coe_mul]
  exact ⟨_, rfl⟩

abbrev SQ : Shape := ⟨3, ![8, 4096, 64]⟩
abbrev SM : Shape := ⟨3, ![8, 4096, 4096]⟩

/-- The masked, scaled score of query row `n` against key row `k` in batch `b`. -/
def score (Q K : SQ.Idx → EReal) (Mk : SM.Idx → EReal) (b : Fin 8) (n k : Fin 4096) : EReal :=
  Scalar.select (Ideal.cmp .oeq (Mk (ix3 b n k)) (Ideal.ofBits .f32 0x00000000#32)) (Ideal.ofBits .f32 0xD01502F9#32)
    (Ideal.div (∑ d : Fin 64, Q (ix3 b n d) * K (ix3 b k d)) (Ideal.ofBits .f32 0x41000000#32))

/-- The attention output at `(b, n, d)`. -/
def out (Q K V : SQ.Idx → EReal) (Mk : SM.Idx → EReal) (b : Fin 8) (n : Fin 4096) (d : Fin 64) : EReal :=
  attnK (fun k : Fin 4096 => score Q K Mk b n k) (fun k : Fin 4096 => V (ix3 b k d))

/-- The whole output array. -/
def G (Q K V : SQ.Idx → EReal) (Mk : SM.Idx → EReal) : SQ.Idx → EReal :=
  fun i => out Q K V Mk (i 0) (i 1) (i 2)

theorem G_ix3 (Q K V : SQ.Idx → EReal) (Mk : SM.Idx → EReal) (b : Fin 8) (n : Fin 4096) (d : Fin 64) :
    G Q K V Mk (ix3 b n d) = out Q K V Mk b n d := rfl

/-- A dot product with one side scaled by 1/8 is the dot product divided by 8. -/
theorem scaled_dot {ι : Type} [Fintype ι] (q k : ι → EReal) :
    ∑ d, (q d * Ideal.ofBits .f32 0x3E000000#32) * k d
      = Ideal.div (∑ d, q d * k d) (Ideal.ofBits .f32 0x41000000#32) := by
  have h8 : (0 : EReal) ≤ ((1 / 8 : ℝ) : EReal) := EReal.coe_nonneg.mpr (by norm_num)
  rw [ofBits_eighth, ofBits_eight, Ideal.div_coe (by norm_num : (8 : ℝ) ≠ 0),
    ← univ_sum_mul_of_nonneg_of_ne_top h8 (EReal.coe_ne_top _)]
  exact Finset.sum_congr rfl fun d _ => mul_right_comm _ _ _

/-- With real queries and keys every score is a real number. -/
theorem isReal_score (Q K : SQ.Idx → EReal) (Mk : SM.Idx → EReal) (hQ : ∀ i, IsReal (Q i)) (hK : ∀ i, IsReal (K i))
    (b : Fin 8) (n k : Fin 4096) : IsReal (score Q K Mk b n k) := by
  unfold score Scalar.select
  split
  · exact isReal_fill
  · rw [ofBits_eight, Ideal.div_coe (by norm_num : (8 : ℝ) ≠ 0)]
    exact (IsReal.sum _ _ fun d _ => (hQ _).mul (hK _)).mul ⟨_, rfl⟩

end Cert.Spec

end
-- ==== Proof.Final.lean ====
/-
  From what the grid points write back to the whole output array.

  The grid has 8 × 2 × 2 points: batch `b`, query tile `qi`, key tile `ki`, the key tile changing fastest.  At a point
  the query block holds rows `qi · 2048 + r` of batch `b`, the key and value blocks rows `ki · 2048 + j`, the mask block
  those query rows against those key rows.  Only the point of the last key tile writes its output block back, and that
  block was computed over what the point just before it — the first key tile of the same batch and query tile — left in
  the three carried buffers.  So the entry `(r, d)` of the block written back is the carried quotient after two updates
  from `(−∞, 0, 0)`, over the scores of query row `qi · 2048 + r` against keys `0 … 2047` and then `2048 … 4095`; with
  real queries and keys that is the softmax-weighted sum of the values over all 4096 keys.  The sixteen blocks written
  back tile the output array, so the array ends at the attention output everywhere.
-/
import proofs.«163251_j36807869727308_2_alg».proof.Proof.Gen.KernelIdeal.Value
import proofs.«163251_j36807869727308_2_alg».proof.Proof.Pieces
import proofs.«163251_j36807869727308_2_alg».proof.Proof.Tile
import proofs.«163251_j36807869727308_2_alg».proof.Proof.Spec
import proofs.«163251_j36807869727308_2_alg».proof.Proof.LibOnlineSoftmax
import Idealize.ShloMosaic.Lib.Pipeline.Value
import Idealize.ShloMosaic.Lib.ValueIdx

noncomputable section

open scoped BigOperators
open Idealize.ShloMosaic Idealize.ShloMosaic.TcCoe Idealize.ShloMosaic.ValueIdx Idealize.SL.Sem
open Idealize.ShloMosaic.Pipeline (Dat)

namespace Cert.KernelIdeal.Final

open Cert.KernelIdeal Cert.KernelIdeal.Gen Cert.KernelIdeal.Value Cert.LibRealEntries

variable (m : (ℓ : Loc nD τ sig) → Buf (Elt Ideal) ℓ) (ρ : Dev nD → PrngReg)

/-- The grid point `t` of the 8 × 2 × 2 grid is (batch `t / 4`, query tile `(t / 2) % 2`, key tile `t % 2`): the block
    indices of the five windows there, decided over the 32 points. -/
theorem idx_facts : ∀ t : Fin cfg0.N,
    win0_0.index t (0 : Fin 3) = t.val / 4 ∧ win0_0.index t (1 : Fin 3) = (t.val / 2) % 2 ∧ win0_0.index t (2 : Fin 3) = 0
    ∧ win0_1.index t (0 : Fin 3) = t.val / 4 ∧ win0_1.index t (1 : Fin 3) = t.val % 2 ∧ win0_1.index t (2 : Fin 3) = 0
    ∧ win0_2.index t (0 : Fin 3) = t.val / 4 ∧ win0_2.index t (1 : Fin 3) = t.val % 2 ∧ win0_2.index t (2 : Fin 3) = 0
    ∧ win0_3.index t (0 : Fin 3) = t.val / 4 ∧ win0_3.index t (1 : Fin 3) = (t.val / 2) % 2 ∧ win0_3.index t (2 : Fin 3) = t.val % 2
    ∧ win0_4.index t (0 : Fin 3) = t.val / 4 ∧ win0_4.index t (1 : Fin 3) = (t.val / 2) % 2 ∧ win0_4.index t (2 : Fin 3) = 0 :=
  (by decide +kernel : ∀ t : Fin grid0.N, _)

/-- The query block at a point: rows `qi · 2048 + r` of batch `b`. -/
theorem q_block (c : Dev nD) (t : Fin cfg0.N) (r : Fin 2048) (d : Fin 64) (b : Fin 8) (n : Fin 4096)
    (hb : b.val = t.val / 4) (hn : n.val = (t.val / 2) % 2 * 2048 + r.val) :
    iblk m c 0 t (ix3 (0 : Fin 1) r d) = m ((c : Thread nD τ).loc main_arg0) (ix3 b n d) := by
  obtain ⟨e0, e1, e2, -⟩ := idx_facts t
  show V m c main_arg0 (((cfg0.win 0).blk t).view.emb (ix3 (0 : Fin 1) r d)) = _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 2048 + 1 * r.val = n.val; omega
  | ⟨2, _⟩ => show win0_0.index t (2 : Fin 3) * 64 + 1 * d.val = d.val; omega

/-- The key block at a point: rows `ki · 2048 + j` of batch `b`. -/
theorem k_block (c : Dev nD) (t : Fin cfg0.N) (j : Fin 2048) (d : Fin 64) (b : Fin 8) (k : Fin 4096)
    (hb : b.val = t.val / 4) (hk : k.val = t.val % 2 * 2048 + j.val) :
    iblk m c 1 t (ix3 (0 : Fin 1) j d) = m ((c : Thread nD τ).loc main_arg1) (ix3 b k d) := by
  obtain ⟨-, -, -, e0, e1, e2, -⟩ := idx_facts t
  show V m c main_arg1 (((cfg0.win 1).blk t).view.emb (ix3 (0 : Fin 1) j d)) = _
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 2048 + 1 * j.val = k.val; omega
  | ⟨2, _⟩ => show win0_1.index t (2 : Fin 3) * 64 + 1 * d.val = d.val; omega

/-- The value block at a point: rows `ki · 2048 + j` of batch `b`. -/
theorem v_block (c : Dev nD) (t : Fin cfg0.N) (j : Fin 2048) (d : Fin 64) (b : Fin 8) (k : Fin 4096)
    (hb : b.val = t.val / 4) (hk : k.val = t.val % 2 * 2048 + j.val) :
    iblk m c 2 t (ix3 (0 : Fin 1) j d) = m ((c : Thread nD τ).loc main_arg2) (ix3 b k d) := by
  obtain ⟨-, -, -, -, -, -, e0, e1, e2, -⟩ := idx_facts t
  show V m c main_arg2 (((cfg0.win 2).blk t).view.emb (ix3 (0 : Fin 1) j d)) = _
  refine congrArg (V m c main_arg2) (funext fun a => Fin.ext ?_)
  match a with
  | ⟨0, _⟩ => show win0_2.index t (0 : Fin 3) * 1 + 1 * 0 = b.val; omega
  | ⟨1, _⟩ => show win0_2.index t (1 : Fin 3) * 2048 + 1 * j.val = k.val; omega
  | ⟨2, _⟩ => show win0_2.index t (2 : Fin 3) * 64 + 1 * d.val = d.val; omega

/-- The mask block at a point: query rows `qi · 2048 + r` against key rows `ki · 2048 + j` of batch `b`. -/
theorem mask_block (c : Dev nD) (t : Fin cfg0.N) (r j : Fin 2048) (b : Fin 8) (n k : Fin 4096)
    (hb : b.val = t.val / 4) (hn : n.val = (t.val / 2) % 2 * 2048 + r.val) (hk : k.val = t.val % 2 * 2048 + j.val) :
    iblk m c 3 t (ix3 (0 : Fin 1) r j) = m ((c : Thread nD τ).loc main_arg3) (ix3 b n k) := by
  obtain ⟨-, -, -, -, -, -, -, -, -, e0, e1, e2, -⟩ := idx_facts t
  show V m c main_arg3 (((cfg0.win 3).blk t).view.emb (ix3 (0 : Fin 1) r j)) = _
  refine congrArg (V m c main_arg3) (funext fun a => Fin.ext ?_)
  match a with
  | ⟨0, _⟩ => show win0_3.index t (0 : Fin 3) * 1 + 1 * 0 = b.val; omega
  | ⟨1, _⟩ => show win0_3.index t (1 : Fin 3) * 2048 + 1 * r.val = n.val; omega
  | ⟨2, _⟩ => show win0_3.index t (2 : Fin 3) * 2048 + 1 * j.val = k.val; omega

/-- A point's masked score tile is the corresponding part of the array's scores: scaling the query by 1/8 is dividing
    the dot product by 8. -/
theorem ts_eq (c : Dev nD) (t : Fin cfg0.N) (r j : Fin 2048) (b : Fin 8) (n k : Fin 4096)
    (hb : b.val = t.val / 4) (hn : n.val = (t.val / 2) % 2 * 2048 + r.val) (hk : k.val = t.val % 2 * 2048 + j.val) :
    Tile.ts (iblk m c 0 t) (iblk m c 1 t) (iblk m c 3 t) r j
      = Spec.score (m ((c : Thread nD τ).loc main_arg0)) (m ((c : Thread nD τ).loc main_arg1)) (m ((c : Thread nD τ).loc main_arg3)) b n k := by
  unfold Tile.ts Spec.score
  rw [mask_block m c t r j b n k hb hn hk]
  refine congrArg (Scalar.select _ _) ?_
  refine Eq.trans (Finset.sum_congr rfl fun d _ => ?_)
    (Spec.scaled_dot (fun d : Fin 64 => m ((c : Thread nD τ).loc main_arg0) (ix3 b n d)) (fun d : Fin 64 => m ((c : Thread nD τ).loc main_arg1) (ix3 b k d)))
  rw [q_block m c t r d b n hb hn, k_block m c t j d b k hb hk]

/-- The attention output array of the argument arrays as launched. -/
abbrev Garr (c : Dev nD) : S8x4096x64.Idx → EReal :=
  Spec.G (m ((c : Thread nD τ).loc main_arg0)) (m ((c : Thread nD τ).loc main_arg1)) (m ((c : Thread nD τ).loc main_arg2)) (m ((c : Thread nD τ).loc main_arg3))

theorem cut4 (t : Fin cfg0.N) (X : Vec Ideal S1x2048x64 .f32) (y : S1x2048x64.Idx) :
    (cfg0.win 4).cut (grid0.coords t) X y = X y := rfl

/-- WHAT A LAST-TILE POINT WRITES BACK is its block of the attention output: the point's output block is the carried
    quotient after the two key tiles of its query tile, which for real queries and keys is the softmax-weighted sum over
    all 4096 keys. -/
theorem flushed_eq (c : Dev nD) (hQ : ∀ i, IsReal (m ((c : Thread nD τ).loc main_arg0) i))
    (hK : ∀ i, IsReal (m ((c : Thread nD τ).loc main_arg1) i)) (t : Fin cfg0.N) (hf : (cfg0.win 4).flush t = true) :
    (dats m 0 c).flushed 4 t = ((cfg0.win 4).blk t).view.read (Elt Ideal) (Garr m c) := by
  have hN : cfg0.N = 32 := N_0
  have hlt : t.val < 32 := lt_of_lt_of_eq t.isLt hN
  have h1 : t.val % 2 = 1 := (flush0_4 t).mp hf
  have h0 : ¬t.val % 2 = 0 := by omega
  obtain ⟨tA, htA⟩ : ∃ tA : Fin cfg0.N, tA.val = t.val - 1 := ⟨⟨t.val - 1, by have := t.isLt; omega⟩, rfl⟩
  have key : ∀ (n : ℕ) (hn : n < cfg0.N), n = tA.val → outsAt0 m c n hn = outsAt0 m c tA.val tA.isLt := by
    intro n hn e; subst e; rfl
  rw [flushed4_B m c t h0 h1, key (t.val - 1) _ htA.symm, outsAt0_A m c tA (by omega) (by omega)]
  dsimp only
  rw [Pieces.last_out, Pieces.first_max, Pieces.first_den, Pieces.first_acc]
  refine funext fun (y : S1x2048x64.Idx) => ?_
  obtain ⟨u, r, d, rfl⟩ : ∃ (u : Fin 1) (r : Fin 2048) (d : Fin 64), y = ix3 u r d := ⟨y 0, y 1, y 2, eq_ix3 y⟩
  obtain rfl : u = 0 := Subsingleton.elim _ _
  rw [cut4]
  refine (Tile.out_two_tiles _ _ _ _ _ _ _ _ r d).trans ?_
  obtain ⟨-, -, -, -, -, -, -, -, -, -, -, -, e0, e1, e2⟩ := idx_facts t
  have hemb : ((cfg0.win 4).blk t).view.emb (ix3 (0 : Fin 1) r d)
      = ix3 (⟨t.val / 4, by omega⟩ : Fin 8) (⟨(t.val / 2) % 2 * 2048 + r.val, by have := r.isLt; omega⟩ : Fin 4096) d :=
    funext fun a => Fin.ext (by
      match a with
      | ⟨0, _⟩ => show win0_4.index t (0 : Fin 3) * 1 + 1 * 0 = t.val / 4; omega
      | ⟨1, _⟩ => show win0_4.index t (1 : Fin 3) * 2048 + 1 * r.val = (t.val / 2) % 2 * 2048 + r.val; omega
      | ⟨2, _⟩ => show win0_4.index t (2 : Fin 3) * 64 + 1 * d.val = d.val; omega)
  show _ = Garr m c (((cfg0.win 4).blk t).view.emb (ix3 (0 : Fin 1) r d))
  rw [hemb]
  dsimp only [Garr]
  rw [Spec.G_ix3]
  unfold Spec.out
  refine Online.two_tiles (a := 2048) (b := 2048) (n := 4096) rfl (by norm_num) (by norm_num) _ _ _ _ _ _
    (fun j => ts_eq m c tA r j _ _ ⟨j.val, by have := j.isLt; omega⟩ (by show t.val / 4 = tA.val / 4; omega)
      (by show (t.val / 2) % 2 * 2048 + r.val = (tA.val / 2) % 2 * 2048 + r.val; omega) (by show j.val = tA.val % 2 * 2048 + j.val; omega))
    (fun j => ts_eq m c t r j _ _ ⟨2048 + j.val, by have := j.isLt; omega⟩ rfl rfl (by show 2048 + j.val = t.val % 2 * 2048 + j.val; omega))
    (fun j => v_block m c tA j d _ ⟨j.val, by have := j.isLt; omega⟩ (by show t.val / 4 = tA.val / 4; omega)
      (by show j.val = tA.val % 2 * 2048 + j.val; omega))
    (fun j => v_block m c t j d _ ⟨2048 + j.val, by have := j.isLt; omega⟩ rfl (by show 2048 + j.val = t.val % 2 * 2048 + j.val; omega))
    (fun k => Spec.isReal_score _ _ _ hQ hK _ _ k)

/-- An index of the output array is in point `t`'s block iff each coordinate is in the block's range on its axis. -/
theorem mem_blk4 (t : Fin cfg0.N) (i : S8x4096x64.Idx) :
    i ∈ ((cfg0.win 4).blk t).view.set ↔ ∀ a : Fin 3, win0_4.index t a * S1x2048x64.size a ≤ (i a).val
      ∧ (i a).val < win0_4.index t a * S1x2048x64.size a + S1x2048x64.size a := by
  show i ∈ ((View.whole main_v0).slice (win0_4.rect t)).set ↔ _
  rw [View.set_slice_whole, Rect.mem_set_unit]
  exact Iff.rfl

/-- Every entry `(b, n, d)` of the output lies in the block the last key tile of query tile `n / 2048` of batch `b`
    writes back. -/
theorem cover (i : S8x4096x64.Idx) : ∃ t : Fin cfg0.N, (cfg0.win 4).flush t = true ∧ i ∈ ((cfg0.win 4).blk t).view.set := by
  have hN : cfg0.N = 32 := N_0
  have h0 : (i 0).val < 8 := (i 0).isLt
  have h1 : (i 1).val < 4096 := (i 1).isLt
  have h2 : (i 2).val < 64 := (i 2).isLt
  obtain ⟨t, ht⟩ : ∃ t : Fin cfg0.N, t.val = (i 0).val * 4 + (i 1).val / 2048 * 2 + 1 :=
    ⟨⟨(i 0).val * 4 + (i 1).val / 2048 * 2 + 1, by omega⟩, rfl⟩
  refine ⟨t, (flush0_4 t).mpr (by omega), ?_⟩
  rw [mem_blk4]
  obtain ⟨-, -, -, -, -, -, -, -, -, -, -, -, e0, e1, e2⟩ := idx_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 64 ≤ (i 2).val ∧ (i 2).val < win0_4.index t (2 : Fin 3) * 64 + 64; omega

/-- THE OUTPUT ARRAY after the run is the attention output of the argument arrays, when queries and keys are real. -/
theorem final (c : Dev nD) (hQ : ∀ i, IsReal (m ((c : Thread nD τ).loc main_arg0) i))
    (hK : ∀ i, IsReal (m ((c : Thread nD τ).loc main_arg1) i)) : (dats m 0 c).arrAt 4 cfg0.N = Garr m c :=
  (dats m 0 c).arrAt_eq_of_cover 4 (Garr m c) (fun t hf => flushed_eq m c hQ hK t hf) cover

/-- The kernel's run, read: the result array at the attention output, the arguments unchanged. -/
theorem run (hQ : ∀ (c : Dev nD) i, IsReal (m ((c : Thread nD τ).loc main_arg0) i))
    (hK : ∀ (c : Dev nD) i, IsReal (m ((c : Thread nD τ).loc main_arg1) i)) :
    θ_run defs (onTc (τ := τ) (main (F := Ideal))) ⟨m, fun _ => 0, ρ⟩ fun r => ∀ c : Dev nD,
      r.2.mem ((c : Thread nD τ).loc main_v0) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hQ c) (hK c)), (h c).2⟩) (run_blocks m ρ)

end Cert.KernelIdeal.Final

end
-- ==== Proof.RefValue.lean ====
/-
  The reference program, entry by entry, over the extended reals.

  Its score array holds at `(b, n, k)` the dot product of query row `n` and key row `k` of batch `b` divided by 8, or the
  fill value where the mask entry is zero.  It takes each row's maximum (a maximum from −∞ over the 4096 keys, i.e. the
  supremum of the row), exponentiates the differences, sums them from 0, divides each weight by that sum, and contracts
  the normalised weights with the values.  So its result at `(b, n, d)` is `Σ_k (w_k / L) · v (b, k, d)`: attention
  with the weights normalised first.  With real queries and keys the scores are real, and then this equals the form
  normalised after the weighted sum — the specification's.
-/
import proofs.«163251_j36807869727308_2_alg».proof.Proof.Gen.ReferenceIdeal.Read
import proofs.«163251_j36807869727308_2_alg».proof.Proof.Spec
import proofs.«163251_j36807869727308_2_alg».proof.Proof.LibRowMax
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attn Cert.LibRealEntries

variable (Q K V : (⟨S8x4096x64, .f32⟩ : BufTy).Contents (Elt Ideal)) (Mk : (⟨S8x4096x4096, .f32⟩ : BufTy).Contents (Elt Ideal))

/-! ## Which entries each operation reads -/

theorem l0 (b : Fin 8) (n k : Fin 4096) (d : Fin 64) : lidx_main_v0 (ix3 b n k) d = ix3 b n d :=
  funext fun a => Fin.ext (by match a with | ⟨0, _⟩ => rfl | ⟨1, _⟩ => rfl | ⟨2, _⟩ => rfl)
theorem r0 (b : Fin 8) (n k : Fin 4096) (d : Fin 64) : ridx_main_v0 (ix3 b n k) d = ix3 b k d :=
  funext fun a => Fin.ext (by match a with | ⟨0, _⟩ => rfl | ⟨1, _⟩ => rfl | ⟨2, _⟩ => rfl)
theorem i10 (b : Fin 8) (n k : Fin 4096) : idx_main_v9 (idx_main_v10 (ix3 b n k)) = ix2 b n :=
  funext fun a => Fin.ext (by match a with | ⟨0, _⟩ => rfl | ⟨1, _⟩ => rfl)
theorem i13 (b : Fin 8) (n k : Fin 4096) : idx_main_v13 (ix2 b n) k = ix3 b n k :=
  funext fun a => Fin.ext (by match a with | ⟨0, _⟩ => rfl | ⟨1, _⟩ => rfl | ⟨2, _⟩ => rfl)
theorem i15 (b : Fin 8) (n k : Fin 4096) : idx_main_v14 (idx_main_v15 (ix3 b n k)) = ix2 b n :=
  funext fun a => Fin.ext (by match a with | ⟨0, _⟩ => rfl | ⟨1, _⟩ => rfl)
theorem l17 (b : Fin 8) (n k : Fin 4096) (d : Fin 64) : lidx_main_v17 (ix3 b n d) k = ix3 b n k :=
  funext fun a => Fin.ext (by match a with | ⟨0, _⟩ => rfl | ⟨1, _⟩ => rfl | ⟨2, _⟩ => rfl)
theorem r17 (b : Fin 8) (n k : Fin 4096) (d : Fin 64) : ridx_main_v17 (ix3 b n d) k = ix3 b k d :=
  funext fun a => Fin.ext (by match a with | ⟨0, _⟩ => rfl | ⟨1, _⟩ => rfl | ⟨2, _⟩ => rfl)

/-! ## The stages at an entry -/

/-- The masked scaled scores. -/
theorem v5_apply (b : Fin 8) (n k : Fin 4096) : val_main_v5 (F := Ideal) Q K Mk (ix3 b n k) = Spec.score Q K Mk b n k := by
  rw [val_main_v5_apply, val_main_v4_apply, val_main_v3_apply, val_main_cst_0_apply, val_main_call0_v1_apply,
    val_main_call0_v0_apply, val_main_cst_1_apply, val_main_v2_apply, val_main_v0_apply, val_main_v1_apply, val_main_cst_apply]
  simp only [l0, r0]
  rfl

/-- The row maximum: a maximum from −∞ over the keys is the supremum of the row. -/
theorem v6_apply (b : Fin 8) (n : Fin 4096) :
    val_main_v6 (F := Ideal) Q K Mk (ix2 b n) = Finset.univ.sup fun k : Fin 4096 => Spec.score Q K Mk b n k := by
  unfold val_main_v6
  rw [Host.reduce_eq_fold_single FloatOps.maximumf _ _ reducesTo_S8x4096x4096_S8x4096_d2 (by decide) h_S_]
  show (Finset.univ : Finset (Fin 4096)).fold max (Ideal.ofBits .f32 0xFF800000#32) _ = _
  rw [LibRowMax.ofBits_neg_inf_f32]
  refine (LibRowMax.fold_max_bot_eq_sup _ _).trans (congrArg Finset.univ.sup (funext fun k => ?_))
  refine Eq.trans (congrArg (val_main_v5 (F := Ideal) Q K Mk) ?_) (v5_apply Q K Mk b n k)
  exact funext fun a => Fin.ext (by match a with | ⟨0, _⟩ => rfl | ⟨1, _⟩ => rfl | ⟨2, _⟩ => rfl)

theorem v8_apply (b : Fin 8) (n : Fin 4096) :
    val_main_v8 (F := Ideal) Q K Mk (ix2 b n) = rowMax fun k : Fin 4096 => Spec.score Q K Mk b n k := by
  rw [val_main_v8_apply, val_main_v7_apply, val_main_cst_3_apply, v6_apply]
  show max (Ideal.ofBits .f32 0xFF800000#32) _ = _
  rw [LibRowMax.ofBits_neg_inf_f32, max_eq_right bot_le]
  rfl

/-- The weights. -/
theorem v12_apply (b : Fin 8) (n k : Fin 4096) :
    val_main_v12 (F := Ideal) Q K Mk (ix3 b n k) = wt (fun k : Fin 4096 => Spec.score Q K Mk b n k) k := by
  rw [val_main_v12_apply, val_main_v11_apply, v5_apply, val_main_v10_apply, val_main_v9_apply, i10, v8_apply]
  rfl

/-- The normalising sum. -/
theorem v13_apply (b : Fin 8) (n : Fin 4096) :
    val_main_v13 (F := Ideal) Q K Mk (ix2 b n) = den fun k : Fin 4096 => Spec.score Q K Mk b n k := by
  rw [val_main_v13_apply, val_main_cst_4_apply]
  simp only [i13, v12_apply]
  show Ideal.ofBits .f32 0x00000000#32 + _ = _
  rw [Ideal.ofBits_zero_f32, zero_add]
  rfl

/-- The normalised weights. -/
theorem v16_apply (b : Fin 8) (n k : Fin 4096) :
    val_main_v16 (F := Ideal) Q K Mk (ix3 b n k)
      = Ideal.div (wt (fun k : Fin 4096 => Spec.score Q K Mk b n k) k) (den fun k : Fin 4096 => Spec.score Q K Mk b n k) := by
  rw [val_main_v16_apply, v12_apply, val_main_v15_apply, val_main_v14_apply, i15, v13_apply]
  rfl

/-- The result: attention with the weights normalised first. -/
theorem v17_apply (b : Fin 8) (n : Fin 4096) (d : Fin 64) :
    val_main_v17 (F := Ideal) Q K V Mk (ix3 b n d)
      = attnR (fun k : Fin 4096 => Spec.score Q K Mk b n k) (fun k : Fin 4096 => V (ix3 b k d)) := by
  rw [val_main_v17_apply]
  simp only [l17, r17, v16_apply]
  rfl

/-- With real queries and keys the reference's result is the specification's attention output. -/
theorem result_eq (hQ : ∀ i, IsReal (Q i)) (hK : ∀ i, IsReal (K i)) :
    val_main_v17 (F := Ideal) Q K V Mk = Spec.G Q K V Mk := by
  funext i
  obtain ⟨b, n, d, rfl⟩ : ∃ (b : Fin 8) (n : Fin 4096) (d : Fin 64), i = ix3 b n d := ⟨i 0, i 1, i 2, eq_ix3 i⟩
  rw [v17_apply, Spec.G_ix3]
  unfold Spec.out
  haveI : Nonempty (Fin 4096) := ⟨⟨0, by norm_num⟩⟩
  exact (attnK_eq_attnR _ _ (fun k => Spec.isReal_score Q K Mk hQ hK b n k)).symm

end Cert.ReferenceIdeal.RefValue

end
-- ==== Proof.LibAllFinite.lean ====
/-
  Reading a precondition's words. A precondition printed from `jnp.all(jnp.abs(x) < inf) & … & jnp.all(s > 0)` is a
  conjunction of `and`-reductions of comparison words, read at its one index. A comparison word that is `1` is the
  comparison of the two extended reals; `|x| < +∞` makes `x` a real number; hence an all-reduction of `|a| < +∞`
  that is `1` makes every entry of `a` real, and a word `a > b` at an index is `b j < a j`.
-/
import proofs.«163251_j36807869727308_2_alg».proof.Proof.LibRealEntries
import Idealize.ShloMosaic.Lib.ReduceAll
import Idealize.ShloMosaic.Lib.ValueIdx
import Idealize.ShloMosaic.PureOps.Ideal.Laws

noncomputable section

namespace Cert.LibAllFinite

open Idealize.ShloMosaic Idealize.ShloMosaic.ValueIdx Cert.LibRealEntries

instance : Subsingleton (⟨0, ![]⟩ : Shape).Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- A true comparison word is the comparison. -/
theorem lt_of_cmp_olt {x y : EReal} (h : Ideal.cmp .olt x y = 1#1) : x < y := by
  by_contra hn
  have : decide (x < y) = false := decide_eq_false hn
  simp [Ideal.cmp, this] at h

theorem lt_of_cmp_ogt {x y : EReal} (h : Ideal.cmp .ogt x y = 1#1) : y < x := by
  by_contra hn
  have : decide (y < x) = false := decide_eq_false hn
  simp [Ideal.cmp, this] at h

/-- `|x| < +∞` makes `x` a real number. -/
theorem isReal_of_abs_lt_top (x : EReal) (h : max x (-x) < (⊤ : EReal)) : IsReal x := by
  induction x using EReal.rec with
  | bot => simp at h
  | coe r => exact ⟨r, rfl⟩
  | top => simp at h

/-- `jnp.all(|a| < +∞)` that is true makes every entry of `a` a real number. -/
theorem real_of_all {s : Shape} {axes : List (Fin s.rank)} (a : FVec Ideal s .f32)
    (hb : (⟨0, ![]⟩ : Shape).BroadcastsInDim s (![] : Fin 0 → Fin s.rank))
    (init : IVec ⟨0, ![]⟩ 1) (hred : s.ReducesTo axes ⟨0, ![]⟩) (hu : 0 < (⟨0, ![]⟩ : Shape).numel)
    (h : Host.reduce IntOp.andi
      (cmpf .olt (Host.absf a) (broadcastInDim s ![] hb (constant (F := Ideal) ⟨0, ![]⟩ .f32 0x7F800000#32)))
      init hred hu ix0 = 1#1) (i : s.Idx) : IsReal (a i) := by
  have hi := Host.reduce_andi_all _ init hred hu ix0 h i
  have h1 : Ideal.cmp .olt (max (a i) (-(a i))) (Ideal.ofBits .f32 0x7F800000#32) = 1#1 := hi
  rw [ofBits_inf] at h1
  exact isReal_of_abs_lt_top _ (lt_of_cmp_olt h1)

/-- A true comparison word between two arrays at an index is the inequality of their entries. -/
theorem lt_of_cmpf_ogt {s : Shape} (a b : FVec Ideal s .f32) (j : s.Idx) (h : cmpf .ogt a b j = 1#1) : b j < a j :=
  lt_of_cmp_ogt h

end Cert.LibAllFinite

end
-- ==== Proof.Finite.lean ====
/-
  What the precondition gives.  `finite_inputs` is the conjunction of four statements "every entry of the array has
  absolute value below +∞", one per argument array, each an all-reduction of comparison words.  When it holds, every
  entry of the first two arrays — the queries and the keys — is a real number.  (The values and the mask are also
  finite, but the equality of the two programs does not need it.)
-/
import proofs.«163251_j36807869727308_2_alg».proof.Proof.Gen.Pre_finite_inputs
import proofs.«163251_j36807869727308_2_alg».proof.Proof.LibAllFinite
import Idealize.ShloMosaic.Lib.Affine

noncomputable section

namespace Cert.Finite

open Idealize.ShloMosaic Idealize.ShloMosaic.ValueIdx Cert.LibRealEntries Cert.LibAllFinite Cert.Pre_finite_inputs

variable [Cert.Pre_finite_inputs.Facts]

/-- Under the precondition every query entry and every key entry is a real number. -/
theorem real_of_pre (a0 a1 a2 : FVec Ideal S8x4096x64 .f32) (a3 : FVec Ideal S8x4096x4096 .f32)
    (h : fn (F := Ideal) a0 a1 a2 a3 = fun _ => 1#1) : (∀ i, IsReal (a0 i)) ∧ (∀ i, IsReal (a1 i)) := by
  have h0 := congrFun h ix0
  dsimp only [fn, fn_part1] at h0
  obtain ⟨h012, -⟩ := IntOp.andi_eq_one.mp h0
  obtain ⟨h01, -⟩ := IntOp.andi_eq_one.mp h012
  obtain ⟨hr0, hr1⟩ := IntOp.andi_eq_one.mp h01
  exact ⟨fun i => real_of_all a0 _ _ _ _ hr0 i, fun i => real_of_all a1 _ _ _ _ hr1 i⟩

end Cert.Finite

end
-- ==== Proof.lean ====
/-
  Masked scaled-dot-product attention: a kernel that walks the keys in two tiles of 2048 with a running maximum, a running
  sum of exponential weights and a running weighted sum of value rows, against the reference that forms all 4096 scores
  of a query row, applies softmax to them and contracts with the values.

  Over the extended reals, for finite inputs, both compute at `(b, n, d)` the number
  `(Σ_k w_k · v (b, k, d)) / (Σ_k w_k)` with `w_k = exp (s_k − max_k s_k)` and `s_k` the masked score of query row `n`
  against key row `k` (the dot product over 8, or −10¹⁰ where the mask entry is zero).  Three facts join the two sides:
  scaling the query by 1/8 before the dot product is dividing the dot product by 8; rescaling the carried sums by
  `exp (m₀ − M)` when the running maximum rises from `m₀` to `M` turns weights relative to `m₀` into weights relative to
  `M`, because that factor is a nonnegative real and `exp (m₀ − M) · exp (s − m₀) = exp (s − M)` for real scores; and
  dividing the weighted sum by the sum of weights is the same as dividing each weight first, because the sum of weights
  is at least one.  Finiteness of the queries and keys is what makes the scores real; nothing is asked of the values or
  of the mask.

  The three programs run and leave their arguments unchanged; the idealisation rewrote nothing.
-/
import proofs.«163251_j36807869727308_2_alg».proof.Defs
import proofs.«163251_j36807869727308_2_alg».proof.Proof.Gen.Kernel
import proofs.«163251_j36807869727308_2_alg».proof.Proof.Gen.Kernel.Frame
import proofs.«163251_j36807869727308_2_alg».proof.Proof.Gen.KernelIdeal
import proofs.«163251_j36807869727308_2_alg».proof.Proof.Gen.KernelIdeal.Frame
import proofs.«163251_j36807869727308_2_alg».proof.Proof.Gen.KernelIdeal.Value
import proofs.«163251_j36807869727308_2_alg».proof.Proof.Gen.ReferenceIdeal
import proofs.«163251_j36807869727308_2_alg».proof.Proof.Gen.ReferenceIdeal.Run
import proofs.«163251_j36807869727308_2_alg».proof.Proof.Gen.ReferenceIdeal.Read
import proofs.«163251_j36807869727308_2_alg».proof.Proof.Gen.Pre_finite_inputs
import proofs.«163251_j36807869727308_2_alg».proof.Proof.Final
import proofs.«163251_j36807869727308_2_alg».proof.Proof.RefValue
import proofs.«163251_j36807869727308_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- At the ideal instance, from memories agreeing on the arguments, the kernel's result array and the reference's both
    end at the attention output of the arguments: the precondition makes the queries and keys real. -/
theorem algebraic : Cert.algebraic_KernelIdeal_ReferenceIdeal := by
  intro m ρ m' ρ' hpre hagree
  have hQK := fun c => Cert.Finite.real_of_pre _ _ _ _ (hpre c)
  refine ⟨fun c => Cert.KernelIdeal.Final.Garr m c,
    Cert.KernelIdeal.Final.run m ρ (fun c => (hQK c).1) (fun c => (hQK c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2]
  exact Cert.ReferenceIdeal.RefValue.result_eq _ _ _ _ (hQK c).1 (hQK c).2

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
